-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x4 : Shape := ⟨2, ![500000, 4]⟩
abbrev S_ : Shape := ⟨0, ![]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x16000000 : Shape := ⟨2, ![2, 16000000]⟩
abbrev S500000 : Shape := ⟨1, ![500000]⟩

class Facts : Prop where
  bcast_S_S500000x4 : S_.BroadcastsInDim S500000x4 (![] : Fin 0 → Fin S500000x4.rank)
  reducesTo_S500000x4_S_d0_1 : S500000x4.ReducesTo [0, 1] S_
  h_S_ : 0 < S_.numel
  reducesTo_S_S_d : S_.ReducesTo [] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v81 : IVec S_ 1) (main_v83 : IVec S64 1) (main_c_33 : IVec S_ 1) : IVec S_ 1 :=
  let main_v84 : IVec S_ 1 := (fun x v => Host.reduce IntOp.andi x v reducesTo_S64_S_d0 h_S_) main_v83 main_c_33
  let main_v85 : IVec S_ 1 := andi main_v81 main_v84
  main_v85

def fn_part4 {F : FTy → Type} [FloatOps F] (main_arg7 : FVec F S128 .f32) (main_arg13 : FVec F S64 .f32) (main_arg14 : FVec F S64x2 .f32) (main_arg15 : FVec F S2 .f32) (main_v67 : IVec S_ 1) : IVec S_ 1 :=
  let main_v68 : FVec F S64x2 .f32 := Host.absf main_arg14
  let main_cst_26 : FVec F S_ .f32 := constant S_ .f32 0x7F800000#32
  let main_v69 : FVec F S64x2 .f32 := broadcastInDim S64x2 ![] bcast_S_S64x2 main_cst_26
  let main_v70 : IVec S64x2 1 := cmpf .olt main_v68 main_v69
  let main_c_27 : IVec S_ 1 := constantI S_ 1 1#1
  let main_v71 : IVec S_ 1 := (fun x v => Host.reduce IntOp.andi x v reducesTo_S64x2_S_d0_1 h_S_) main_v70 main_c_27
  let main_v72 : IVec S_ 1 := andi main_v67 main_v71
  let main_v73 : FVec F S2 .f32 := Host.absf main_arg15
  let main_cst_28 : FVec F S_ .f32 := constant S_ .f32 0x7F800000#32
  let main_v74 : FVec F S2 .f32 := broadcastInDim S2 ![] bcast_S_S2 main_cst_28
  let main_v75 : IVec S2 1 := cmpf .olt main_v73 main_v74
  let main_c_29 : IVec S_ 1 := constantI S_ 1 1#1
  let main_v76 : IVec S_ 1 := (fun x v => Host.reduce IntOp.andi x v reducesTo_S2_S_d0 h_S_) main_v75 main_c_29
  let main_v77 : IVec S_ 1 := andi main_v72 main_v76
  let main_cst_30 : FVec F S_ .f32 := constant S_ .f32 0x00000000#32
  let main_v78 : FVec F S128 .f32 := broadcastInDim S128 ![] bcast_S_S128 main_cst_30
  let main_v79 : IVec S128 1 := cmpf .oge main_arg7 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  let main_cst_32 : FVec F S_ .f32 := constant S_ .f32 0x00000000#32
  let main_v82 : FVec F S64 .f32 := broadcastInDim S64 ![] bcast_S_S64 main_cst_32
  let main_v83 : IVec S64 1 := cmpf .oge main_arg13 main_v82
  let main_c_33 : IVec S_ 1 := constantI S_ 1 1#1
  fn_part5 (F := F) main_v81 main_v83 main_c_33

def fn_part3 {F : FTy → Type} [FloatOps F] (main_arg7 : FVec F S128 .f32) (main_arg11 : FVec F S64 .f32) (main_arg12 : FVec F S64 .f32) (main_arg13 : FVec F S64 .f32) (main_arg14 : FVec F S64x2 .f32) (main_arg15 : FVec F S2 .f32) (main_v47 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v47 main_v51
  let main_v53 : FVec F S64 .f32 := Host.absf main_arg11
  let main_cst_20 : FVec F S_ .f32 := constant S_ .f32 0x7F800000#32
  let main_v54 : FVec F S64 .f32 := broadcastInDim S64 ![] bcast_S_S64 main_cst_20
  let main_v55 : IVec S64 1 := cmpf .olt main_v53 main_v54
  let main_c_21 : IVec S_ 1 := constantI S_ 1 1#1
  let main_v56 : IVec S_ 1 := (fun x v => Host.reduce IntOp.andi x v reducesTo_S64_S_d0 h_S_) main_v55 main_c_21
  let main_v57 : IVec S_ 1 := andi main_v52 main_v56
  let main_v58 : FVec F S64 .f32 := Host.absf main_arg12
  let main_cst_22 : FVec F S_ .f32 := constant S_ .f32 0x7F800000#32
  let main_v59 : FVec F S64 .f32 := broadcastInDim S64 ![] bcast_S_S64 main_cst_22
  let main_v60 : IVec S64 1 := cmpf .olt main_v58 main_v59
  let main_c_23 : IVec S_ 1 := constantI S_ 1 1#1
  let main_v61 : IVec S_ 1 := (fun x v => Host.reduce IntOp.andi x v reducesTo_S64_S_d0 h_S_) main_v60 main_c_23
  let main_v62 : IVec S_ 1 := andi main_v57 main_v61
  let main_v63 : FVec F S64 .f32 := Host.absf main_arg13
  let main_cst_24 : FVec F S_ .f32 := constant S_ .f32 0x7F800000#32
  let main_v64 : FVec F S64 .f32 := broadcastInDim S64 ![] bcast_S_S64 main_cst_24
  let main_v65 : IVec S64 1 := cmpf .olt main_v63 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v62 main_v66
  fn_part4 (F := F) main_arg7 main_arg13 main_arg14 main_arg15 main_v67

def fn_part2 {F : FTy → Type} [FloatOps F] (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128x64 .f32 := Host.absf main_arg8
  let main_cst_14 : FVec F S_ .f32 := constant S_ .f32 0x7F800000#32
  let main_v39 : FVec F S128x64 .f32 := broadcastInDim S128x64 ![] bcast_S_S128x64 main_cst_14
  let main_v40 : IVec S128x64 1 := cmpf .olt main_v38 main_v39
  let main_c_15 : IVec S_ 1 := constantI S_ 1 1#1
  let main_v41 : IVec S_ 1 := (fun x v => Host.reduce IntOp.andi x v reducesTo_S128x64_S_d0_1 h_S_) main_v40 main_c_15
  let main_v42 : IVec S_ 1 := andi main_v37 main_v41
  let main_v43 : FVec F S64 .f32 := Host.absf main_arg9
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  let main_v48 : FVec F S64 .f32 := Host.absf main_arg10
  let main_cst_18 : FVec F S_ .f32 := constant S_ .f32 0x7F800000#32
  let main_v49 : FVec F S64 .f32 := broadcastInDim S64 ![] bcast_S_S64 main_cst_18
  let main_v50 : IVec S64 1 := cmpf .olt main_v48 main_v49
  fn_part3 (F := F) main_arg7 main_arg11 main_arg12 main_arg13 main_arg14 main_arg15 main_v47 main_v50

def fn_part1 {F : FTy → Type} [FloatOps F] (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128 .f32 := Host.absf main_arg6
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128 .f32 := Host.absf main_arg7
  fn_part2 (F := F) main_arg7 main_arg8 main_arg9 main_arg10 main_arg11 main_arg12 main_arg13 main_arg14 main_arg15 main_v32 main_v33

def fn {F : FTy → Type} [FloatOps F] (main_arg0 : FVec F S500000x4 .f32) (main_arg1 : FVec F S_ .f32) (main_arg2 : FVec F S4x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_arg16 : IVec S2x16000000 32) (main_arg17 : IVec S500000 32) : IVec S_ 1 :=
  let main_v0 : FVec F S500000x4 .f32 := Host.absf main_arg0
  let main_cst : FVec F S_ .f32 := constant S_ .f32 0x7F800000#32
  let main_v1 : FVec F S500000x4 .f32 := broadcastInDim S500000x4 ![] bcast_S_S500000x4 main_cst
  let main_v2 : IVec S500000x4 1 := cmpf .olt main_v0 main_v1
  let main_c : IVec S_ 1 := constantI S_ 1 1#1
  let main_v3 : IVec S_ 1 := (fun x v => Host.reduce IntOp.andi x v reducesTo_S500000x4_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4x128 .f32 := Host.absf main_arg2
  let main_cst_2 : FVec F S_ .f32 := constant S_ .f32 0x7F800000#32
  let main_v9 : FVec F S4x128 .f32 := broadcastInDim S4x128 ![] bcast_S_S4x128 main_cst_2
  let main_v10 : IVec S4x128 1 := cmpf .olt main_v8 main_v9
  let main_c_3 : IVec S_ 1 := constantI S_ 1 1#1
  let main_v11 : IVec S_ 1 := (fun x v => Host.reduce IntOp.andi x v reducesTo_S4x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_v12 main_v15 main_c_5
-- ==== Kernel.lean ====
abbrev S500000x4 : Shape := ⟨2, ![500000, 4]⟩
abbrev S_ : Shape := ⟨0, ![]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S16000000x1 : Shape := ⟨2, ![16000000, 1]⟩
abbrev S16000000x4 : Shape := ⟨2, ![16000000, 4]⟩
abbrev S1x128 : Shape := ⟨2, ![1, 128]⟩
abbrev S1x64 : Shape := ⟨2, ![1, 64]⟩
abbrev S500000x64 : Shape := ⟨2, ![500000, 64]⟩
abbrev S10000x4 : Shape := ⟨2, ![10000, 4]⟩
abbrev S10000x64 : Shape := ⟨2, ![10000, 64]⟩
abbrev S10000x128 : Shape := ⟨2, ![10000, 128]⟩
abbrev S5000x64 : Shape := ⟨2, ![5000, 64]⟩
abbrev S500000x1 : Shape := ⟨2, ![500000, 1]⟩
abbrev S5000x1 : Shape := ⟨2, ![5000, 1]⟩
abbrev S5000x2 : Shape := ⟨2, ![5000, 2]⟩
abbrev S1x2 : Shape := ⟨2, ![1, 2]⟩
abbrev S5000 : Shape := ⟨1, ![5000]⟩

abbrev nBuf : Space → Nat
  | .hbm => 99
  | .vmem => 8
  | .smem => 0
  | _ => 0

abbrev bufTy : (tb : Table) → Fin (tcTables nBuf tb) → BufTy
  | .hbm, ⟨0, _⟩ => ⟨S500000x4, .f32⟩
  | .hbm, ⟨1, _⟩ => ⟨S_, .f32⟩
  | .hbm, ⟨2, _⟩ => ⟨S4x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S2x16000000, .i32⟩
  | .hbm, ⟨17, _⟩ => ⟨S500000, .i32⟩
  | .hbm, ⟨18, _⟩ => ⟨S1x16000000, .i32⟩
  | .hbm, ⟨19, _⟩ => ⟨S16000000, .i32⟩
  | .hbm, ⟨20, _⟩ => ⟨S1x16000000, .i32⟩
  | .hbm, ⟨21, _⟩ => ⟨S16000000, .i32⟩
  | .hbm, ⟨22, _⟩ => ⟨S_, .i32⟩
  | .hbm, ⟨23, _⟩ => ⟨S16000000, .i32⟩
  | .hbm, ⟨24, _⟩ => ⟨S16000000, .i1⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S16000000x1, .i32⟩
  | .hbm, ⟨30, _⟩ => ⟨S16000000x4, .f32⟩
  | .hbm, ⟨31, _⟩ => ⟨S_, .f32⟩
  | .hbm, ⟨32, _⟩ => ⟨S500000x4, .f32⟩
  | .hbm, ⟨33, _⟩ => ⟨S16000000x1, .i32⟩
  | .hbm, ⟨34, _⟩ => ⟨S500000x4, .f32⟩
  | .hbm, ⟨35, _⟩ => ⟨S_, .f32⟩
  | .hbm, ⟨36, _⟩ => ⟨S_, .f32⟩
  | .hbm, ⟨37, _⟩ => ⟨S500000x4, .f32⟩
  | .hbm, ⟨38, _⟩ => ⟨S500000x4, .f32⟩
  | .hbm, ⟨39, _⟩ => ⟨S500000x4, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S4x128, .f32⟩
  | .hbm, ⟨47, _⟩ => ⟨S4x128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S128x64, .f32⟩
  | .hbm, ⟨58, _⟩ => ⟨S128x64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x128, .f32⟩
  | .hbm, ⟨63, _⟩ => ⟨S1x64, .f32⟩
  | .hbm, ⟨64, _⟩ => ⟨S500000x64, .f32⟩
  | .hbm, ⟨65, _⟩ => ⟨S_, .f32⟩
  | .hbm, ⟨66, _⟩ => ⟨S5000x64, .f32⟩
  | .hbm, ⟨67, _⟩ => ⟨S500000x1, .i32⟩
  | .hbm, ⟨68, _⟩ => ⟨S5000x64, .f32⟩
  | .hbm, ⟨69, _⟩ => ⟨S_, .f32⟩
  | .hbm, ⟨70, _⟩ => ⟨S500000x1, .f32⟩
  | .hbm, ⟨71, _⟩ => ⟨S_, .f32⟩
  | .hbm, ⟨72, _⟩ => ⟨S5000x1, .f32⟩
  | .hbm, ⟨73, _⟩ => ⟨S500000x1, .i32⟩
  | .hbm, ⟨74, _⟩ => ⟨S5000x1, .f32⟩
  | .hbm, ⟨75, _⟩ => ⟨S_, .f32⟩
  | .hbm, ⟨76, _⟩ => ⟨S5000x1, .f32⟩
  | .hbm, ⟨77, _⟩ => ⟨S5000x1, .f32⟩
  | .hbm, ⟨78, _⟩ => ⟨S5000x64, .f32⟩
  | .hbm, ⟨79, _⟩ => ⟨S5000x64, .f32⟩
  | .hbm, ⟨80, _⟩ => ⟨S5000x2, .f32⟩
  | .hbm, ⟨81, _⟩ => ⟨S1x2, .f32⟩
  | .hbm, ⟨82, _⟩ => ⟨S5000x2, .f32⟩
  | .hbm, ⟨83, _⟩ => ⟨S5000x2, .f32⟩
  | .hbm, ⟨84, _⟩ => ⟨S_, .f32⟩
  | .hbm, ⟨85, _⟩ => ⟨S5000, .f32⟩
  | .hbm, ⟨86, _⟩ => ⟨S_, .f32⟩
  | .hbm, ⟨87, _⟩ => ⟨S5000, .f32⟩
  | .hbm, ⟨88, _⟩ => ⟨S5000, .f32⟩
  | .hbm, ⟨89, _⟩ => ⟨S5000x1, .f32⟩
  | .hbm, ⟨90, _⟩ => ⟨S5000x2, .f32⟩
  | .hbm, ⟨91, _⟩ => ⟨S5000x2, .f32⟩
  | .hbm, ⟨92, _⟩ => ⟨S5000x2, .f32⟩
  | .hbm, ⟨93, _⟩ => ⟨S_, .f32⟩
  | .hbm, ⟨94, _⟩ => ⟨S5000, .f32⟩
  | .hbm, ⟨95, _⟩ => ⟨S5000x1, .f32⟩
  | .hbm, ⟨96, _⟩ => ⟨S5000x1, .f32⟩
  | .hbm, ⟨97, _⟩ => ⟨S5000x2, .f32⟩
  | .hbm, ⟨98, _⟩ => ⟨S5000x2, .f32⟩
  | .local _ .vmem, ⟨0, _⟩ => ⟨S10000x4, .f32⟩
  | .local _ .vmem, ⟨1, _⟩ => ⟨S10000x4, .f32⟩
  | .local _ .vmem, ⟨2, _⟩ => ⟨S4x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_call0_cst_0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_cst_1 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_v56 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x4 : S_.BroadcastsInDim S500000x4 (![] : Fin 0 → Fin S500000x4.rank)
  bcast_S_S128 : S_.BroadcastsInDim S128 (![] : Fin 0 → Fin S128.rank)
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  bcast_S_S64 : S_.BroadcastsInDim S64 (![] : Fin 0 → Fin S64.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  shapeCasts_S128_S1x128 : S128.ShapeCasts S1x128
  shapeCasts_S64_S1x64 : S64.ShapeCasts S1x64
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S5000x64 : S_.BroadcastsInDim S5000x64 (![] : Fin 0 → Fin S5000x64.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S5000x1 : S_.BroadcastsInDim S5000x1 (![] : Fin 0 → Fin S5000x1.rank)
  bcast_S5000x1_S5000x64_0_1 : S5000x1.BroadcastsInDim S5000x64 (![0, 1] : Fin 2 → Fin S5000x64.rank)
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  reducesTo_S5000x2_S5000_d1 : S5000x2.ReducesTo [1] S5000
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x2_0_1 : S5000x1.BroadcastsInDim S5000x2 (![0, 1] : Fin 2 → Fin S5000x2.rank)
  gather_S500000x4_S16000000x1_S16000000x4_1_0_n_n_0_1_14_wf : GatherDims.WF S500000x4 S16000000x1 S16000000x4 [1] [0] [] [0] [] 1 ![1, 4]
  scatter_S500000x4_S16000000x1_S16000000x4_1_0_0_1_wf : ScatterDims.WF S500000x4 S16000000x1 S16000000x4 [1] [0] [0] 1
  dot_S10000x4_S4x128_S10000x128_1_0_0_1_n_n_wf : DotDims.WF S10000x4 S4x128 S10000x128 [1] [0] [0] [1] [] []
  dot_S10000x128_S128x64_S10000x64_1_0_0_1_n_n_wf : DotDims.WF S10000x128 S128x64 S10000x64 [1] [0] [0] [1] [] []
  scatter_S5000x64_S500000x1_S500000x64_1_0_0_1_wf : ScatterDims.WF S5000x64 S500000x1 S500000x64 [1] [0] [0] 1
  scatter_S5000x1_S500000x1_S500000x1_1_0_0_1_wf : ScatterDims.WF S5000x1 S500000x1 S500000x1 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S500000x4.size a
  hwx0_0 : ∀ i : grid0.Coords, EltTy.bits .f32 = 32 ∨ (Rect.block (s := S500000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S500000x64.size a
  hwx0_5 : ∀ i : grid0.Coords, EltTy.bits .f32 = 32 ∨ (Rect.block (s := S500000x64) S10000x64.size (cc0_transform_5 i) (hinb0_5 i)).WholeWords (EltTy.packing .f32)

variable [Facts₀]

def gather_S500000x4_S16000000x1_S16000000x4_1_0_n_n_0_1_14 : GatherDims S500000x4 S16000000x1 S16000000x4 where
  offsetDims := [1]
  collapsedSliceDims := [0]
  operandBatchingDims := []
  startIndicesBatchingDims := []
  startIndexMap := [0]
  indexVectorDim := 1
  sliceSizes := ![1, 4]
  wf := gather_S500000x4_S16000000x1_S16000000x4_1_0_n_n_0_1_14_wf
def scatter_S500000x4_S16000000x1_S16000000x4_1_0_0_1 : ScatterDims S500000x4 S16000000x1 S16000000x4 where
  updateWindowDims := [1]
  insertedWindowDims := [0]
  scatterDimsToOperandDims := [0]
  indexVectorDim := 1
  wf := scatter_S500000x4_S16000000x1_S16000000x4_1_0_0_1_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S5000x64_S500000x1_S500000x64_1_0_0_1 : ScatterDims S5000x64 S500000x1 S500000x64 where
  updateWindowDims := [1]
  insertedWindowDims := [0]
  scatterDimsToOperandDims := [0]
  indexVectorDim := 1
  wf := scatter_S5000x64_S500000x1_S500000x64_1_0_0_1_wf
def scatter_S5000x1_S500000x1_S500000x1_1_0_0_1 : ScatterDims S5000x1 S500000x1 S500000x1 where
  updateWindowDims := [1]
  insertedWindowDims := [0]
  scatterDimsToOperandDims := [0]
  indexVectorDim := 1
  wf := scatter_S5000x1_S500000x1_S500000x1_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v17) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x4 : Shape := ⟨2, ![500000, 4]⟩
abbrev S_ : Shape := ⟨0, ![]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S16000000x1 : Shape := ⟨2, ![16000000, 1]⟩
abbrev S16000000x4 : Shape := ⟨2, ![16000000, 4]⟩
abbrev S500000x128 : Shape := ⟨2, ![500000, 128]⟩
abbrev S1x128 : Shape := ⟨2, ![1, 128]⟩
abbrev S500000x64 : Shape := ⟨2, ![500000, 64]⟩
abbrev S1x64 : Shape := ⟨2, ![1, 64]⟩
abbrev S5000x64 : Shape := ⟨2, ![5000, 64]⟩
abbrev S500000x1 : Shape := ⟨2, ![500000, 1]⟩
abbrev S5000x1 : Shape := ⟨2, ![5000, 1]⟩
abbrev S5000x2 : Shape := ⟨2, ![5000, 2]⟩
abbrev S1x2 : Shape := ⟨2, ![1, 2]⟩
abbrev S5000 : Shape := ⟨1, ![5000]⟩

abbrev nBuf : Space → Nat
  | .hbm => 116
  | .vmem => 0
  | .smem => 0
  | _ => 0

abbrev bufTy : (tb : Table) → Fin (tcTables nBuf tb) → BufTy
  | .hbm, ⟨0, _⟩ => ⟨S500000x4, .f32⟩
  | .hbm, ⟨1, _⟩ => ⟨S_, .f32⟩
  | .hbm, ⟨2, _⟩ => ⟨S4x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S2x16000000, .i32⟩
  | .hbm, ⟨17, _⟩ => ⟨S500000, .i32⟩
  | .hbm, ⟨18, _⟩ => ⟨S1x16000000, .i32⟩
  | .hbm, ⟨19, _⟩ => ⟨S16000000, .i32⟩
  | .hbm, ⟨20, _⟩ => ⟨S1x16000000, .i32⟩
  | .hbm, ⟨21, _⟩ => ⟨S16000000, .i32⟩
  | .hbm, ⟨22, _⟩ => ⟨S_, .i32⟩
  | .hbm, ⟨23, _⟩ => ⟨S16000000, .i32⟩
  | .hbm, ⟨24, _⟩ => ⟨S16000000, .i1⟩
  | .hbm, ⟨25, _⟩ => ⟨S_, .i32⟩
  | .hbm, ⟨26, _⟩ => ⟨S16000000, .i32⟩
  | .hbm, ⟨27, _⟩ => ⟨S16000000, .i32⟩
  | .hbm, ⟨28, _⟩ => ⟨S16000000, .i32⟩
  | .hbm, ⟨29, _⟩ => ⟨S16000000x1, .i32⟩
  | .hbm, ⟨30, _⟩ => ⟨S16000000x4, .f32⟩
  | .hbm, ⟨31, _⟩ => ⟨S_, .f32⟩
  | .hbm, ⟨32, _⟩ => ⟨S500000x4, .f32⟩
  | .hbm, ⟨33, _⟩ => ⟨S16000000x1, .i32⟩
  | .hbm, ⟨34, _⟩ => ⟨S500000x4, .f32⟩
  | .hbm, ⟨35, _⟩ => ⟨S_, .f32⟩
  | .hbm, ⟨36, _⟩ => ⟨S_, .f32⟩
  | .hbm, ⟨37, _⟩ => ⟨S500000x4, .f32⟩
  | .hbm, ⟨38, _⟩ => ⟨S500000x4, .f32⟩
  | .hbm, ⟨39, _⟩ => ⟨S500000x4, .f32⟩
  | .hbm, ⟨40, _⟩ => ⟨S500000x128, .f32⟩
  | .hbm, ⟨41, _⟩ => ⟨S1x128, .f32⟩
  | .hbm, ⟨42, _⟩ => ⟨S500000x128, .f32⟩
  | .hbm, ⟨43, _⟩ => ⟨S500000x128, .f32⟩
  | .hbm, ⟨44, _⟩ => ⟨S1x128, .f32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S500000x128, .f32⟩
  | .hbm, ⟨54, _⟩ => ⟨S500000x128, .f32⟩
  | .hbm, ⟨55, _⟩ => ⟨S1x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S500000x64, .f32⟩
  | .hbm, ⟨62, _⟩ => ⟨S1x64, .f32⟩
  | .hbm, ⟨63, _⟩ => ⟨S500000x64, .f32⟩
  | .hbm, ⟨64, _⟩ => ⟨S500000x64, .f32⟩
  | .hbm, ⟨65, _⟩ => ⟨S1x64, .f32⟩
  | .hbm, ⟨66, _⟩ => ⟨S500000x64, .f32⟩
  | .hbm, ⟨67, _⟩ => ⟨S500000x64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S500000x64, .f32⟩
  | .hbm, ⟨75, _⟩ => ⟨S500000x64, .f32⟩
  | .hbm, ⟨76, _⟩ => ⟨S1x64, .f32⟩
  | .hbm, ⟨77, _⟩ => ⟨S500000x64, .f32⟩
  | .hbm, ⟨78, _⟩ => ⟨S500000x64, .f32⟩
  | .hbm, ⟨79, _⟩ => ⟨S_, .f32⟩
  | .hbm, ⟨80, _⟩ => ⟨S500000x64, .f32⟩
  | .hbm, ⟨81, _⟩ => ⟨S500000x64, .f32⟩
  | .hbm, ⟨82, _⟩ => ⟨S_, .f32⟩
  | .hbm, ⟨83, _⟩ => ⟨S5000x64, .f32⟩
  | .hbm, ⟨84, _⟩ => ⟨S500000x1, .i32⟩
  | .hbm, ⟨85, _⟩ => ⟨S5000x64, .f32⟩
  | .hbm, ⟨86, _⟩ => ⟨S_, .f32⟩
  | .hbm, ⟨87, _⟩ => ⟨S500000x1, .f32⟩
  | .hbm, ⟨88, _⟩ => ⟨S_, .f32⟩
  | .hbm, ⟨89, _⟩ => ⟨S5000x1, .f32⟩
  | .hbm, ⟨90, _⟩ => ⟨S500000x1, .i32⟩
  | .hbm, ⟨91, _⟩ => ⟨S5000x1, .f32⟩
  | .hbm, ⟨92, _⟩ => ⟨S_, .f32⟩
  | .hbm, ⟨93, _⟩ => ⟨S5000x1, .f32⟩
  | .hbm, ⟨94, _⟩ => ⟨S5000x1, .f32⟩
  | .hbm, ⟨95, _⟩ => ⟨S5000x64, .f32⟩
  | .hbm, ⟨96, _⟩ => ⟨S5000x64, .f32⟩
  | .hbm, ⟨97, _⟩ => ⟨S5000x2, .f32⟩
  | .hbm, ⟨98, _⟩ => ⟨S1x2, .f32⟩
  | .hbm, ⟨99, _⟩ => ⟨S5000x2, .f32⟩
  | .hbm, ⟨100, _⟩ => ⟨S5000x2, .f32⟩
  | .hbm, ⟨101, _⟩ => ⟨S_, .f32⟩
  | .hbm, ⟨102, _⟩ => ⟨S5000, .f32⟩
  | .hbm, ⟨103, _⟩ => ⟨S_, .f32⟩
  | .hbm, ⟨104, _⟩ => ⟨S5000, .f32⟩
  | .hbm, ⟨105, _⟩ => ⟨S5000, .f32⟩
  | .hbm, ⟨106, _⟩ => ⟨S5000x1, .f32⟩
  | .hbm, ⟨107, _⟩ => ⟨S5000x2, .f32⟩
  | .hbm, ⟨108, _⟩ => ⟨S5000x2, .f32⟩
  | .hbm, ⟨109, _⟩ => ⟨S5000x2, .f32⟩
  | .hbm, ⟨110, _⟩ => ⟨S_, .f32⟩
  | .hbm, ⟨111, _⟩ => ⟨S5000, .f32⟩
  | .hbm, ⟨112, _⟩ => ⟨S5000x1, .f32⟩
  | .hbm, ⟨113, _⟩ => ⟨S5000x1, .f32⟩
  | .hbm, ⟨114, _⟩ => ⟨S5000x2, .f32⟩
  | .hbm, ⟨115, _⟩ => ⟨S5000x2, .f32⟩
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call0_cst : Ref sig .tc := ⟨.hbm, 58, rfl⟩
abbrev main_call0_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_cst_4 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_5 : Ref sig .tc := ⟨.hbm, 86, rfl⟩
abbrev main_v57 : Ref sig .tc := ⟨.hbm, 87, rfl⟩
abbrev main_cst_6 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call2_cst : Ref sig .tc := ⟨.hbm, 101, rfl⟩
abbrev main_call2_v0 : Ref sig .tc := ⟨.hbm, 102, rfl⟩
abbrev main_call2_cst_0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_cst_1 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_v69 : Ref sig .tc := ⟨.hbm, 115, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x4 : S_.BroadcastsInDim S500000x4 (![] : Fin 0 → Fin S500000x4.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S128 : S_.BroadcastsInDim S128 (![] : Fin 0 → Fin S128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S64 : S_.BroadcastsInDim S64 (![] : Fin 0 → Fin S64.rank)
  bcast_S_S500000x64 : S_.BroadcastsInDim S500000x64 (![] : Fin 0 → Fin S500000x64.rank)
  bcast_S_S5000x64 : S_.BroadcastsInDim S5000x64 (![] : Fin 0 → Fin S5000x64.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S5000x1 : S_.BroadcastsInDim S5000x1 (![] : Fin 0 → Fin S5000x1.rank)
  bcast_S5000x1_S5000x64_0_1 : S5000x1.BroadcastsInDim S5000x64 (![0, 1] : Fin 2 → Fin S5000x64.rank)
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  reducesTo_S5000x2_S5000_d1 : S5000x2.ReducesTo [1] S5000
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x2_0_1 : S5000x1.BroadcastsInDim S5000x2 (![0, 1] : Fin 2 → Fin S5000x2.rank)
  gather_S500000x4_S16000000x1_S16000000x4_1_0_n_n_0_1_14_wf : GatherDims.WF S500000x4 S16000000x1 S16000000x4 [1] [0] [] [0] [] 1 ![1, 4]
  scatter_S500000x4_S16000000x1_S16000000x4_1_0_0_1_wf : ScatterDims.WF S500000x4 S16000000x1 S16000000x4 [1] [0] [0] 1
  dot_S500000x4_S4x128_S500000x128_1_0_0_1_n_n_wf : DotDims.WF S500000x4 S4x128 S500000x128 [1] [0] [0] [1] [] []
  dot_S500000x128_S128x64_S500000x64_1_0_0_1_n_n_wf : DotDims.WF S500000x128 S128x64 S500000x64 [1] [0] [0] [1] [] []
  scatter_S5000x64_S500000x1_S500000x64_1_0_0_1_wf : ScatterDims.WF S5000x64 S500000x1 S500000x64 [1] [0] [0] 1
  scatter_S5000x1_S500000x1_S500000x1_1_0_0_1_wf : ScatterDims.WF S5000x1 S500000x1 S500000x1 [1] [0] [0] 1
  dot_S5000x64_S64x2_S5000x2_1_0_0_1_n_n_wf : DotDims.WF S5000x64 S64x2 S5000x2 [1] [0] [0] [1] [] []

variable [Facts₀]

def gather_S500000x4_S16000000x1_S16000000x4_1_0_n_n_0_1_14 : GatherDims S500000x4 S16000000x1 S16000000x4 where
  offsetDims := [1]
  collapsedSliceDims := [0]
  operandBatchingDims := []
  startIndicesBatchingDims := []
  startIndexMap := [0]
  indexVectorDim := 1
  sliceSizes := ![1, 4]
  wf := gather_S500000x4_S16000000x1_S16000000x4_1_0_n_n_0_1_14_wf
def scatter_S500000x4_S16000000x1_S16000000x4_1_0_0_1 : ScatterDims S500000x4 S16000000x1 S16000000x4 where
  updateWindowDims := [1]
  insertedWindowDims := [0]
  scatterDimsToOperandDims := [0]
  indexVectorDim := 1
  wf := scatter_S500000x4_S16000000x1_S16000000x4_1_0_0_1_wf
def dot_S500000x4_S4x128_S500000x128_1_0_0_1_n_n : DotDims S500000x4 S4x128 S500000x128 where
  lhsContracting := [1]
  rhsContracting := [0]
  lhsNonContracting := [0]
  rhsNonContracting := [1]
  lhsBatch := []
  rhsBatch := []
  wf := dot_S500000x4_S4x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def scatter_S5000x64_S500000x1_S500000x64_1_0_0_1 : ScatterDims S5000x64 S500000x1 S500000x64 where
  updateWindowDims := [1]
  insertedWindowDims := [0]
  scatterDimsToOperandDims := [0]
  indexVectorDim := 1
  wf := scatter_S5000x64_S500000x1_S500000x64_1_0_0_1_wf
def scatter_S5000x1_S500000x1_S500000x1_1_0_0_1 : ScatterDims S5000x1 S500000x1 S500000x1 where
  updateWindowDims := [1]
  insertedWindowDims := [0]
  scatterDimsToOperandDims := [0]
  indexVectorDim := 1
  wf := scatter_S5000x1_S500000x1_S500000x1_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

class Facts : Prop extends Facts₀ where

variable [Facts]
-- ==== Proof.Finite.lean ====
/-
  The precondition read back. The printed predicate is a conjunction (an `and` of one-bit words) of
  eighteen facts: for each of the sixteen float arrays, "every element has absolute value below +∞",
  and for two of them, "every element is at least zero". Each "every element" is a reduction by `and`
  over all axes, from the constant 1. Here the conjunction that equals 1 is split into its conjuncts,
  each reduction gives its fact at every index, and the fact at an index is read on the extended reals:
  an extended real whose absolute value `max x (-x)` is below ⊤ is neither ⊤ nor ⊥, so it is a real
  number; and `0 ≤ x` is what the comparison "at least zero" says.
-/
import proofs.«107156_j19413252178639_2_alg».proof.Pre_finite_inputs
import Idealize.ShloMosaic.PureOps.Ideal
import Idealize.ShloMosaic.PureOps.Ideal.Laws
import Idealize.ShloMosaic.Lib.ReduceAll

namespace Cert.Bridge

open Idealize.ShloMosaic Cert.Pre_finite_inputs

/-- The binary32 pattern with all exponent bits set, sign and fraction zero, denotes +∞. -/
theorem ofBits_posInf_f32 : Ideal.ofBits .f32 0x7F800000#32 = (⊤ : EReal) := by
  simp [Ideal.ofBits, Ideal.ieee]

/-- An extended real whose absolute value `max x (-x)` compares below +∞ is a real number:
    at ⊤ the maximum is ⊤, at ⊥ it is `-⊥ = ⊤`, and neither is below ⊤. -/
theorem real_of_abs_lt_top (x : EReal)
    (h : Ideal.cmp .olt (max x (-x)) (Ideal.ofBits .f32 0x7F800000#32) = 1#1) :
    ∃ r : ℝ, x = (r : EReal) := by
  rw [ofBits_posInf_f32] at h
  induction x using EReal.rec with
  | bot => simp [Ideal.cmp] at h
  | coe r => exact ⟨r, rfl⟩
  | top => simp [Ideal.cmp] at h

/-- An extended real that compares "at least" the zero pattern is nonnegative. -/
theorem nonneg_of_cmp_oge_zero (x : EReal)
    (h : Ideal.cmp .oge x (Ideal.ofBits .f32 0x00000000#32) = 1#1) : (0 : EReal) ≤ x := by
  rw [Ideal.ofBits_zero_f32] at h
  by_contra hn
  simp [Ideal.cmp, hn] at h

/-- The rank-zero shape has exactly one index (the empty tuple). -/
theorem subsingleton_idx_S_ : Subsingleton S_.Idx := ⟨fun a b => funext fun d => d.elim0⟩

/-- If the printed precondition holds of the eighteen arrays, then every element of each of the first
    fourteen float arrays is a real number, and the elements of the eighth and the fourteenth are
    nonnegative. The predicate is a left-nested conjunction whose last two conjuncts are the two
    sign conditions; it is split from the outside inwards. -/
theorem finite_of_pre [hPre_finite_inputs : Cert.Pre_finite_inputs.Facts] (a0 : FVec Ideal S500000x4 .f32) (a1 : FVec Ideal S_ .f32) (a2 : FVec Ideal S4x128 .f32) (a3 : FVec Ideal S128 .f32) (a4 : FVec Ideal S128 .f32) (a5 : FVec Ideal S128 .f32) (a6 : FVec Ideal S128 .f32) (a7 : FVec Ideal S128 .f32) (a8 : FVec Ideal S128x64 .f32) (a9 : FVec Ideal S64 .f32) (a10 : FVec Ideal S64 .f32) (a11 : FVec Ideal S64 .f32) (a12 : FVec Ideal S64 .f32) (a13 : FVec Ideal S64 .f32) (a14 : FVec Ideal S64x2 .f32) (a15 : FVec Ideal S2 .f32) (a16 : IVec S2x16000000 32) (a17 : IVec S500000 32)
    (h : Cert.Pre_finite_inputs.fn (F := Ideal) a0 a1 a2 a3 a4 a5 a6 a7 a8 a9 a10 a11 a12 a13 a14 a15 a16 a17 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, (0 : EReal) ≤ a7 i) ∧ (∀ i, (0 : EReal) ≤ a13 i) := by
  haveI := subsingleton_idx_S_
  have h0 := congrFun h (fun d => d.elim0)
  dsimp only [fn, fn_part1, fn_part2, fn_part3, fn_part4, fn_part5, andi] at h0
  obtain ⟨h0, g13⟩ := IntOp.andi_eq_one.1 h0
  obtain ⟨h0, g7⟩ := IntOp.andi_eq_one.1 h0
  obtain ⟨h0, f15⟩ := IntOp.andi_eq_one.1 h0
  obtain ⟨h0, f14⟩ := IntOp.andi_eq_one.1 h0
  obtain ⟨h0, f13⟩ := IntOp.andi_eq_one.1 h0
  obtain ⟨h0, f12⟩ := IntOp.andi_eq_one.1 h0
  obtain ⟨h0, f11⟩ := IntOp.andi_eq_one.1 h0
  obtain ⟨h0, f10⟩ := IntOp.andi_eq_one.1 h0
  obtain ⟨h0, f9⟩ := IntOp.andi_eq_one.1 h0
  obtain ⟨h0, f8⟩ := IntOp.andi_eq_one.1 h0
  obtain ⟨h0, f7⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  exact ⟨fun i => real_of_abs_lt_top (a0 i) (Host.reduce_andi_all _ _ _ _ _ f0 i),
    fun i => real_of_abs_lt_top (a1 i) (Host.reduce_andi_all _ _ _ _ _ f1 i),
    fun i => real_of_abs_lt_top (a2 i) (Host.reduce_andi_all _ _ _ _ _ f2 i),
    fun i => real_of_abs_lt_top (a3 i) (Host.reduce_andi_all _ _ _ _ _ f3 i),
    fun i => real_of_abs_lt_top (a4 i) (Host.reduce_andi_all _ _ _ _ _ f4 i),
    fun i => real_of_abs_lt_top (a5 i) (Host.reduce_andi_all _ _ _ _ _ f5 i),
    fun i => real_of_abs_lt_top (a6 i) (Host.reduce_andi_all _ _ _ _ _ f6 i),
    fun i => real_of_abs_lt_top (a7 i) (Host.reduce_andi_all _ _ _ _ _ f7 i),
    fun i => real_of_abs_lt_top (a8 i) (Host.reduce_andi_all _ _ _ _ _ f8 i),
    fun i => real_of_abs_lt_top (a9 i) (Host.reduce_andi_all _ _ _ _ _ f9 i),
    fun i => real_of_abs_lt_top (a10 i) (Host.reduce_andi_all _ _ _ _ _ f10 i),
    fun i => real_of_abs_lt_top (a11 i) (Host.reduce_andi_all _ _ _ _ _ f11 i),
    fun i => real_of_abs_lt_top (a12 i) (Host.reduce_andi_all _ _ _ _ _ f12 i),
    fun i => real_of_abs_lt_top (a13 i) (Host.reduce_andi_all _ _ _ _ _ f13 i),
    fun i => nonneg_of_cmp_oge_zero (a7 i) (Host.reduce_andi_all _ _ _ _ _ g7 i),
    fun i => nonneg_of_cmp_oge_zero (a13 i) (Host.reduce_andi_all _ _ _ _ _ g13 i)⟩

end Cert.Bridge
-- ==== Proof.Payload.lean ====
/-
  The kernel's body at one output element.

  The body computes, for the block of rows it is given, two dense layers each followed by a rectifier:
  `max (max (x · W₁ + b₁) 0 · W₂ + b₂) 0`, the products taken into zero accumulators and the biases `[1, n]` rows broadcast
  over the block's rows. Read at row `p` and column `q` this is the composition `layer (layer row W₁ b₁) W₂ b₂ q` of the
  one-row function `layer` below, with `row` the block's row `p`.
-/
import proofs.«107156_j19413252178639_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.KernelIdeal Cert.KernelIdeal.Gen

/-- A dense layer followed by the rectifier, on one row: output `j` is `max (∑ l, row l · w l j + b j) 0`. -/
def layer {n k : ℕ} (row : Fin n → EReal) (w : Fin n → Fin k → EReal) (b : Fin k → EReal) (j : Fin k) : EReal :=
  max ((∑ l, row l * w l j) + b j) 0

theorem mm1_lhs0 (i : S10000x128.Idx) (q : dot_S10000x4_S4x128_S10000x128_1_0_0_1_n_n.contr.Idx) : (dot_S10000x4_S4x128_S10000x128_1_0_0_1_n_n.lhsIdx i q 0).val = (i 0).val := by
  unfold DotDims.lhsIdx
  rw [dif_neg (show ¬(0 : Fin S10000x4.rank) ∈ dot_S10000x4_S4x128_S10000x128_1_0_0_1_n_n.lhsBatch by decide), dif_pos (show (0 : Fin S10000x4.rank) ∈ dot_S10000x4_S4x128_S10000x128_1_0_0_1_n_n.lhsNonContracting by decide)]
  rfl
theorem mm1_lhs1 (i : S10000x128.Idx) (q : dot_S10000x4_S4x128_S10000x128_1_0_0_1_n_n.contr.Idx) : (dot_S10000x4_S4x128_S10000x128_1_0_0_1_n_n.lhsIdx i q 1).val = (q ⟨0, by decide⟩).val :=
  dot_S10000x4_S4x128_S10000x128_1_0_0_1_n_n.lhsIdx_val_of_single rfl i q
theorem mm1_rhs0 (i : S10000x128.Idx) (q : dot_S10000x4_S4x128_S10000x128_1_0_0_1_n_n.contr.Idx) : (dot_S10000x4_S4x128_S10000x128_1_0_0_1_n_n.rhsIdx i q 0).val = (q ⟨0, by decide⟩).val :=
  dot_S10000x4_S4x128_S10000x128_1_0_0_1_n_n.rhsIdx_val_of_single rfl i q
theorem mm1_rhs1 (i : S10000x128.Idx) (q : dot_S10000x4_S4x128_S10000x128_1_0_0_1_n_n.contr.Idx) : (dot_S10000x4_S4x128_S10000x128_1_0_0_1_n_n.rhsIdx i q 1).val = (i 1).val := by
  unfold DotDims.rhsIdx
  rw [dif_neg (show ¬(1 : Fin S4x128.rank) ∈ dot_S10000x4_S4x128_S10000x128_1_0_0_1_n_n.rhsBatch by decide), dif_pos (show (1 : Fin S4x128.rank) ∈ dot_S10000x4_S4x128_S10000x128_1_0_0_1_n_n.rhsNonContracting by decide)]
  rfl

/-- The matrix product into a zero accumulator, read at row `p` and column `c`: the sum over the contracted axis of the
    products of the left operand's row `p` and the right operand's column `c`. -/
theorem mm1_apply (x : FVec Ideal S10000x4 .f32) (w : FVec Ideal S4x128 .f32) (p : Fin 10000) (c : Fin 128) :
    matmul dot_S10000x4_S4x128_S10000x128_1_0_0_1_n_n none x w (constant S10000x128 .f32 0x00000000#32) (ix2 p c) = ∑ l : Fin 4, x (ix2 p l) * w (ix2 l c) := by
  simp only [matmul]
  rw [Ideal.matmul_constant_zero_apply, ← Equiv.sum_comp (contrEquiv1 dot_S10000x4_S4x128_S10000x128_1_0_0_1_n_n 4 rfl rfl).symm]
  refine Finset.sum_congr rfl fun l _ => ?_
  have hk := contrEquiv1_symm_val dot_S10000x4_S4x128_S10000x128_1_0_0_1_n_n 4 rfl rfl l
  have el : dot_S10000x4_S4x128_S10000x128_1_0_0_1_n_n.lhsIdx (ix2 p c) ((contrEquiv1 dot_S10000x4_S4x128_S10000x128_1_0_0_1_n_n 4 rfl rfl).symm l) = ix2 p l := funext fun a => Fin.ext (by
    match a with
    | ⟨0, _⟩ => exact mm1_lhs0 _ _
    | ⟨1, _⟩ => exact (mm1_lhs1 _ _).trans hk)
  have er : dot_S10000x4_S4x128_S10000x128_1_0_0_1_n_n.rhsIdx (ix2 p c) ((contrEquiv1 dot_S10000x4_S4x128_S10000x128_1_0_0_1_n_n 4 rfl rfl).symm l) = ix2 l c := funext fun a => Fin.ext (by
    match a with
    | ⟨0, _⟩ => exact (mm1_rhs0 _ _).trans hk
    | ⟨1, _⟩ => exact mm1_rhs1 _ _)
  rw [el, er]

theorem mm2_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm2_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem mm2_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem mm2_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The matrix product into a zero accumulator, read at row `p` and column `c`: the sum over the contracted axis of the
    products of the left operand's row `p` and the right operand's column `c`. -/
theorem mm2_apply (x : FVec Ideal S10000x128 .f32) (w : FVec Ideal S128x64 .f32) (p : Fin 10000) (c : Fin 64) :
    matmul dot_S10000x128_S128x64_S10000x64_1_0_0_1_n_n none x w (constant S10000x64 .f32 0x00000000#32) (ix2 p c) = ∑ l : Fin 128, x (ix2 p l) * w (ix2 l c) := by
  simp only [matmul]
  rw [Ideal.matmul_constant_zero_apply, ← Equiv.sum_comp (contrEquiv1 dot_S10000x128_S128x64_S10000x64_1_0_0_1_n_n 128 rfl rfl).symm]
  refine Finset.sum_congr rfl fun l _ => ?_
  have hk := contrEquiv1_symm_val dot_S10000x128_S128x64_S10000x64_1_0_0_1_n_n 128 rfl rfl l
  have el : dot_S10000x128_S128x64_S10000x64_1_0_0_1_n_n.lhsIdx (ix2 p c) ((contrEquiv1 dot_S10000x128_S128x64_S10000x64_1_0_0_1_n_n 128 rfl rfl).symm l) = ix2 p l := funext fun a => Fin.ext (by
    match a with
    | ⟨0, _⟩ => exact mm2_lhs0 _ _
    | ⟨1, _⟩ => exact (mm2_lhs1 _ _).trans hk)
  have er : dot_S10000x128_S128x64_S10000x64_1_0_0_1_n_n.rhsIdx (ix2 p c) ((contrEquiv1 dot_S10000x128_S128x64_S10000x64_1_0_0_1_n_n 128 rfl rfl).symm l) = ix2 l c := funext fun a => Fin.ext (by
    match a with
    | ⟨0, _⟩ => exact (mm2_rhs0 _ _).trans hk
    | ⟨1, _⟩ => exact mm2_rhs1 _ _)
  rw [el, er]

/-- The first layer of the body at row `p`, column `k`. -/
theorem hidden_apply (v0 : FVec Ideal S10000x4 .f32) (v2 : FVec Ideal S4x128 .f32) (v5 : FVec Ideal S1x128 .f32) (p : Fin 10000) (k : Fin 128) :
    maximumf (addf (matmul dot_S10000x4_S4x128_S10000x128_1_0_0_1_n_n none v0 v2 (constant S10000x128 .f32 0x00000000#32))
        (broadcastTo S10000x128 v5 broadcasts_S1x128_S10000x128))
      (broadcast S10000x128 (Scalar.ofBits (F := Ideal) .f32 0x00000000#32)) (ix2 p k)
      = layer (fun l => v0 (ix2 p l)) (fun l k => v2 (ix2 l k)) (fun k => v5 (ix2 (0 : Fin 1) k)) k := by
  rw [maximumf_apply, addf_apply, mm1_apply, broadcast_apply]
  rw [show broadcastTo S10000x128 v5 broadcasts_S1x128_S10000x128 (ix2 p k) = v5 (ix2 (0 : Fin 1) k) from
    broadcastTo_1b_ab_apply v5 broadcasts_S1x128_S10000x128 p k]
  show max _ (Ideal.ofBits .f32 0x00000000#32) = _
  rw [Ideal.ofBits_zero_f32]
  rfl

/-- THE BODY AT AN ELEMENT: the stored block at row `p`, column `q` is the two layers applied to the input block's row `p`. -/
theorem pay_apply (v0 : FVec Ideal S10000x4 .f32) (v2 : FVec Ideal S4x128 .f32) (v5 : FVec Ideal S1x128 .f32)
    (v11 : FVec Ideal S128x64 .f32) (v14 : FVec Ideal S1x64 .f32) (p : Fin 10000) (q : Fin 64) :
    k0_pay1 (F := Ideal) v0 v2 v5 v11 v14 (ix2 p q)
      = layer (layer (fun l => v0 (ix2 p l)) (fun l k => v2 (ix2 l k)) (fun k => v5 (ix2 (0 : Fin 1) k)))
          (fun k q => v11 (ix2 k q)) (fun q => v14 (ix2 (0 : Fin 1) q)) q := by
  unfold k0_pay1
  simp only [shapeCast_self]
  refine (maximumf_apply _ _ _).trans ?_
  refine (congrArg₂ max ((addf_apply _ _ _).trans (congrArg₂ (· + ·) ?_ ?_)) ?_)
  · refine (mm2_apply _ _ p q).trans (Finset.sum_congr rfl fun k _ => ?_)
    exact congrArg (· * v11 (ix2 k q)) (hidden_apply v0 v2 v5 p k)
  · exact broadcastTo_1b_ab_apply v14 broadcasts_S1x64_S10000x64 p q
  · show Ideal.ofBits .f32 0x00000000#32 = 0
    exact Ideal.ofBits_zero_f32

end Cert.Bridge

end
-- ==== Proof.Blocks.lean ====
/-
  From the kernel's blocks to its whole result array.

  The launch runs the body at 50 grid points; point `t` reads rows `10000·t … 10000·t + 9999` of the input array (and the
  whole of each weight and bias array) and writes the same rows of the output array. Since the body treats every row
  independently, what point `t` writes is the restriction to its block of ONE function of the whole arrays —
  `mlpArr`: at row `P`, column `q`, the two layers applied to row `P` of the input — and the 50 blocks tile the output,
  so after the launch the output array IS that function.
-/
import proofs.«107156_j19413252178639_2_alg».proof.Proof.Gen.KernelIdeal.Frame
import proofs.«107156_j19413252178639_2_alg».proof.Proof.Payload

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The two layers at row `P` of the input array, column `q`. -/
def mlpAt (h0 : FVec Ideal S500000x4 .f32) (w1 : FVec Ideal S4x128 .f32) (b1 : FVec Ideal S1x128 .f32)
    (w2 : FVec Ideal S128x64 .f32) (b2 : FVec Ideal S1x64 .f32) (P : Fin 500000) (q : Fin 64) : EReal :=
  layer (layer (fun l => h0 (ix2 P l)) (fun l k => w1 (ix2 l k)) (fun k => b1 (ix2 (0 : Fin 1) k)))
    (fun k q => w2 (ix2 k q)) (fun q => b2 (ix2 (0 : Fin 1) q)) q

/-- The same as a whole array. -/
def mlpArr (h0 : FVec Ideal S500000x4 .f32) (w1 : FVec Ideal S4x128 .f32) (b1 : FVec Ideal S1x128 .f32)
    (w2 : FVec Ideal S128x64 .f32) (b2 : FVec Ideal S1x64 .f32) : FVec Ideal S500000x64 .f32 :=
  fun i => mlpAt h0 w1 b1 w2 b2 ⟨(i 0).val, (i 0).isLt⟩ ⟨(i 1).val, (i 1).isLt⟩

/-- The body's stored block at `(p, q)`, when the input block's row `p` is row `P` of the array and the other blocks are
    the whole weight and bias arrays. -/
theorem block_eq (x0 : FVec Ideal S10000x4 .f32) (x1 : FVec Ideal S4x128 .f32) (x2 : FVec Ideal S1x128 .f32)
    (x3 : FVec Ideal S128x64 .f32) (x4 : FVec Ideal S1x64 .f32)
    (h0 : FVec Ideal S500000x4 .f32) (w1 : FVec Ideal S4x128 .f32) (b1 : FVec Ideal S1x128 .f32)
    (w2 : FVec Ideal S128x64 .f32) (b2 : FVec Ideal S1x64 .f32) (p : Fin 10000) (q : Fin 64) (P : Fin 500000)
    (e0 : ∀ l : Fin 4, x0 (ix2 p l) = h0 (ix2 P l)) (e1 : ∀ (l : Fin 4) (k : Fin 128), x1 (ix2 l k) = w1 (ix2 l k))
    (e2 : ∀ k : Fin 128, x2 (ix2 (0 : Fin 1) k) = b1 (ix2 (0 : Fin 1) k))
    (e3 : ∀ (k : Fin 128) (q : Fin 64), x3 (ix2 k q) = w2 (ix2 k q))
    (e4 : ∀ q : Fin 64, x4 (ix2 (0 : Fin 1) q) = b2 (ix2 (0 : Fin 1) q)) :
    k0_pay1 (F := Ideal) x0 x1 x2 x3 x4 (ix2 p q) = mlpAt h0 w1 b1 w2 b2 P q := by
  rw [pay_apply]
  unfold mlpAt
  simp only [e0, e1, e2, e3, e4]

variable (m : (ℓ : Loc nD τ sig) → Buf (Elt Ideal) ℓ)

theorem zero_offsets : (![0, 0] : Fin 2 → Nat) = fun _ => 0 := funext fun a => by fin_cases a <;> rfl

/-- The printed index maps, decided over the grid: the input and the output window move together along the rows, at
    block `t` of point `t`, and the weight and bias windows stay at their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row `p` of point `t`'s input block is row `10000·t + p` of the input array. -/
theorem read_in (c : Dev nD) (t : Fin cfg0.N) (p : Fin 10000) (l : Fin 4) :
    iblk m c 0 t (ix2 p l) = V m c main_v17 (ix2 (⟨t.val * 10000 + p.val, by have := point_lt t; have := p.isLt; omega⟩ : Fin 500000) l) := by
  obtain ⟨f00, f01, -⟩ := index_facts t
  show V m c main_v17 (((cfg0.win 0).blk t).view.emb (ix2 p l)) = V m c main_v17 (ix2 (⟨t.val * 10000 + p.val, by have := point_lt t; have := p.isLt; omega⟩ : Fin 500000) l)
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 4 + 1 * l.val = l.val; omega

/-- Every point's first-layer weight block is the whole array. -/
theorem read_w1 (c : Dev nD) (t : Fin cfg0.N) (l : Fin 4) (k : Fin 128) :
    iblk m c 1 t (ix2 l k) = V m c main_v24 (ix2 l k) := by
  obtain ⟨-, -, f10, f11, -⟩ := index_facts t
  show V m c main_v24 (((cfg0.win 1).blk t).view.emb (ix2 l k)) = V m c main_v24 (ix2 l k)
  refine congrArg _ (funext fun a => Fin.ext ?_)
  match a with
  | ⟨0, _⟩ => show win0_1.index t (0 : Fin 2) * 4 + 1 * l.val = l.val; omega
  | ⟨1, _⟩ => show win0_1.index t (1 : Fin 2) * 128 + 1 * k.val = k.val; omega

/-- Every point's first-layer bias block is the whole one-row array. -/
theorem read_b1 (c : Dev nD) (t : Fin cfg0.N) (k : Fin 128) :
    iblk m c 2 t (ix2 (0 : Fin 1) k) = V m c main_v38 (ix2 (0 : Fin 1) k) := by
  obtain ⟨-, -, -, -, f20, f21, -⟩ := index_facts t
  show V m c main_v38 (((cfg0.win 2).blk t).view.emb (ix2 (0 : Fin 1) k)) = V m c main_v38 (ix2 (0 : Fin 1) k)
  refine congrArg _ (funext fun a => Fin.ext ?_)
  match a with
  | ⟨0, _⟩ => show win0_2.index t (0 : Fin 2) * 1 + 1 * (0 : Fin 1).val = (0 : Fin 1).val; rw [f20]; rfl
  | ⟨1, _⟩ => show win0_2.index t (1 : Fin 2) * 128 + 1 * k.val = k.val; omega

/-- Every point's second-layer weight block is the whole array. -/
theorem read_w2 (c : Dev nD) (t : Fin cfg0.N) (k : Fin 128) (q : Fin 64) :
    iblk m c 3 t (ix2 k q) = V m c main_v34 (ix2 k q) := by
  obtain ⟨-, -, -, -, -, -, f30, f31, -⟩ := index_facts t
  show V m c main_v34 (((cfg0.win 3).blk t).view.emb (ix2 k q)) = V m c main_v34 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

/-- Every point's second-layer bias block is the whole one-row array. -/
theorem read_b2 (c : Dev nD) (t : Fin cfg0.N) (q : Fin 64) :
    iblk m c 4 t (ix2 (0 : Fin 1) q) = V m c main_v39 (ix2 (0 : Fin 1) q) := by
  obtain ⟨-, -, -, -, -, -, -, -, f40, f41, -⟩ := index_facts t
  show V m c main_v39 (((cfg0.win 4).blk t).view.emb (ix2 (0 : Fin 1) q)) = V m c main_v39 (ix2 (0 : Fin 1) q)
  refine congrArg _ (funext fun a => Fin.ext ?_)
  match a with
  | ⟨0, _⟩ => show win0_4.index t (0 : Fin 2) * 1 + 1 * (0 : Fin 1).val = (0 : Fin 1).val; rw [f40]; rfl
  | ⟨1, _⟩ => show win0_4.index t (1 : Fin 2) * 64 + 1 * q.val = q.val; omega

/-- Element `(p, q)` of point `t`'s output block sits at row `10000·t + p`, column `q` of the output array. -/
theorem out_row (t : Fin cfg0.N) (p : Fin 10000) (q : Fin 64) :
    ((((cfg0.win 5).blk t).view.emb (ix2 p q)) 0).val = t.val * 10000 + p.val
    ∧ ((((cfg0.win 5).blk t).view.emb (ix2 p q)) 1).val = q.val := by
  obtain ⟨-, -, -, -, -, -, -, -, -, -, f50, f51⟩ := index_facts t
  constructor
  · show win0_5.index t (0 : Fin 2) * 10000 + 1 * p.val = t.val * 10000 + p.val; omega
  · show win0_5.index t (1 : Fin 2) * 64 + 1 * q.val = q.val; omega

/-- WHAT POINT `t` WRITES BACK is block `t` of `mlpArr` of the arrays as the launch finds them. -/
theorem flushed_eq (c : Dev nD) (t : Fin cfg0.N) :
    (dats m 0 c).flushed 5 t = ((cfg0.win 5).blk t).view.read (Elt Ideal)
      (mlpArr (V m c main_v17) (V m c main_v24) (V m c main_v38) (V m c main_v34) (V m c main_v39)) := by
  show (cfg0.win 5).cut (grid0.coords t) ((dats m 0 c).after 5 t) = _
  rw [after0_5]
  unfold out0_5
  rw [View.canon_unit_zero zero_offsets]
  simp only [View.ld_unit_zero (S := S10000x4) zero_offsets, View.ld_unit_zero (S := S4x128) zero_offsets,
    View.ld_unit_zero (S := S1x128) zero_offsets, View.ld_unit_zero (S := S128x64) zero_offsets,
    View.ld_unit_zero (S := S1x64) zero_offsets]
  funext j
  obtain ⟨p, q, rfl⟩ : ∃ (p : Fin 10000) (q : Fin 64), j = ix2 p q := ⟨j 0, j 1, eq_ix2 j⟩
  obtain ⟨eP, eQ⟩ := out_row t p q
  show k0_pay1 (F := Ideal) (iblk m c 0 t) (iblk m c 1 t) (iblk m c 2 t) (iblk m c 3 t) (iblk m c 4 t) (ix2 p q)
    = mlpAt (V m c main_v17) (V m c main_v24) (V m c main_v38) (V m c main_v34) (V m c main_v39)
        ⟨((((cfg0.win 5).blk t).view.emb (ix2 p q)) 0).val, ((((cfg0.win 5).blk t).view.emb (ix2 p q)) 0).isLt⟩
        ⟨((((cfg0.win 5).blk t).view.emb (ix2 p q)) 1).val, ((((cfg0.win 5).blk t).view.emb (ix2 p q)) 1).isLt⟩
  rw [show (⟨((((cfg0.win 5).blk t).view.emb (ix2 p q)) 0).val, ((((cfg0.win 5).blk t).view.emb (ix2 p q)) 0).isLt⟩ : Fin 500000)
        = ⟨t.val * 10000 + p.val, by have := point_lt t; have := p.isLt; omega⟩ from Fin.ext eP,
    show (⟨((((cfg0.win 5).blk t).view.emb (ix2 p q)) 1).val, ((((cfg0.win 5).blk t).view.emb (ix2 p q)) 1).isLt⟩ : Fin 64) = q from Fin.ext eQ]
  exact block_eq (iblk m c 0 t) (iblk m c 1 t) (iblk m c 2 t) (iblk m c 3 t) (iblk m c 4 t)
    (V m c main_v17) (V m c main_v24) (V m c main_v38) (V m c main_v34) (V m c main_v39) p q
    ⟨t.val * 10000 + p.val, by have := point_lt t; have := p.isLt; omega⟩
    (read_in m c t p) (read_w1 m c t) (read_b1 m c t) (read_w2 m c t) (read_b2 m c t)

/-- An index of the output array is in point `t`'s block iff each coordinate is in the block's range on its axis. -/
theorem mem_block (t : Fin cfg0.N) (i : S500000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v40).slice (win0_5.rect t)).set ↔ _
  rw [View.set_slice_whole, Rect.mem_set_unit]
  exact Iff.rfl

/-- The blocks tile the output array: row `r` is in the block of point `r / 10000`. -/
theorem blocks_cover (i : S500000x64.Idx) :
    ∃ t : Fin cfg0.N, (cfg0.win 5).flush t = true ∧ i ∈ ((cfg0.win 5).blk t).view.set := by
  have hi0 : (i 0).val < 500000 := (i 0).isLt
  have hi1 : (i 1).val < 64 := (i 1).isLt
  have hN : (i 0).val / 10000 < cfg0.N := lt_of_lt_of_eq (show (i 0).val / 10000 < 50 by omega) N_0.symm
  refine ⟨⟨(i 0).val / 10000, hN⟩, flush0_5 _, ?_⟩
  obtain ⟨-, -, -, -, -, -, -, -, -, -, f50, f51⟩ := index_facts ⟨(i 0).val / 10000, hN⟩
  rw [mem_block]
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    rw [f50]; show (i 0).val / 10000 * 10000 ≤ (i 0).val ∧ (i 0).val < (i 0).val / 10000 * 10000 + 10000; omega
  | ⟨1, _⟩ =>
    show win0_5.index ⟨(i 0).val / 10000, hN⟩ (1 : Fin 2) * 64 ≤ (i 1).val ∧ (i 1).val < win0_5.index ⟨(i 0).val / 10000, hN⟩ (1 : Fin 2) * 64 + 64
    rw [f51]; omega

/-- THE OUTPUT ARRAY after the launch: the two layers of the input array as the launch finds it, row by row. -/
theorem result_array (c : Dev nD) :
    (dats m 0 c).arrAt 5 cfg0.N = mlpArr (V m c main_v17) (V m c main_v24) (V m c main_v38) (V m c main_v34) (V m c main_v39) :=
  (dats m 0 c).arrAt_eq_of_cover 5 _ (fun t _ => flushed_eq m c t) blocks_cover

end Cert.Bridge

end
-- ==== Proof.LibRowBroadcast.lean ====
/-
  Three layout operations read at an index: a vector `[a]` made a one-row matrix `[1, a]` by a broadcast along a new
  leading axis, a one-row matrix `[1, b]` repeated over `a` rows, and both at once `[a] → [1, a] → [n, a]`.
-/
import Idealize.ShloMosaic.Lib.Pipeline.Value
import Idealize.ShloMosaic.Lib.ValueIdx

namespace Cert.Lib

open Idealize.ShloMosaic Idealize.ShloMosaic.ValueIdx

variable {α : Type}

/-- A vector `[a]` broadcast to `[1, a]` along a new leading axis reads, at `(0, k)`, the vector at `k`. -/
theorem broadcastInDim_a_1a_apply {a : ℕ} (x : (⟨1, ![a]⟩ : Shape).Idx → α)
    (h : (⟨1, ![a]⟩ : Shape).BroadcastsInDim ⟨2, ![1, a]⟩ ![1]) (k : Fin a) :
    broadcastInDim ⟨2, ![1, a]⟩ ![1] h x (ix2 (0 : Fin 1) k) = x (ix1 k) := by
  refine broadcastInDim_apply _ h x (ix2 (0 : Fin 1) k) (ix1 k) fun ax => ?_
  match ax with
  | ⟨0, _⟩ =>
    show k.val = if a = 1 then 0 else k.val
    split
    · have := k.isLt; omega
    · rfl

/-- A one-row matrix `[1, b]` broadcast to `[a, b]` reads, at `(p, c)`, its one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib
-- ==== Proof.Prologue.lean ====
/-
  The arrays the launch finds, as functions of @main's arguments.

  Before the launch the host computes the layer input `h0 = (1 + eps) · x + agg` (the same operations as the reference, so it is
  the reference's own stage), and folds each batch normalisation into the linear layer in front of it: with
  `s = g · rsqrt (v + ε)` (again the reference's own stage), the folded weight is `W · s` column by column and the folded bias
  `(b − μ) · s + β`, stored as a one-row matrix.
-/
import proofs.«107156_j19413252178639_2_alg».proof.Proof.Gen.KernelIdeal.Frame
import proofs.«107156_j19413252178639_2_alg».proof.Proof.RefRead
import proofs.«107156_j19413252178639_2_alg».proof.Proof.LibRowBroadcast
import Idealize.ShloMosaic.Lib.StableHlo.Run
import Idealize.ShloMosaic.Lib.ValueLayout

set_option maxRecDepth 65536

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The folded scale of the first normalisation, `g₁ · rsqrt (v₁ + ε)`: the reference's own stage. -/
abbrev scale1 (c : Dev nD) : S128.Idx → EReal :=
  Cert.ReferenceIdeal.Read.val_main_v28 (F := Ideal) (m ((c : Thread nD τ).loc main_arg4)) (m ((c : Thread nD τ).loc main_arg7))
/-- The folded scale of the second normalisation, `g₂ · rsqrt (v₂ + ε)`: the reference's own stage. -/
abbrev scale2 (c : Dev nD) : S64.Idx → EReal :=
  Cert.ReferenceIdeal.Read.val_main_v46 (F := Ideal) (m ((c : Thread nD τ).loc main_arg10)) (m ((c : Thread nD τ).loc main_arg13))

/-- The layer input the launch finds is the reference's `(1 + eps) · x + agg`. -/
theorem entry_h0 (c : Dev nD) : V m c main_v17
    = Cert.ReferenceIdeal.Read.val_main_v17 (F := Ideal) (m ((c : Thread nD τ).loc main_arg0)) (m ((c : Thread nD τ).loc main_arg1)) (m ((c : Thread nD τ).loc main_arg16)) := by
  show StableHlo.after hostOps0 (fun b => m (c, b)) (Proc.devRef .tc main_v17) = _
  after_results_simp
  rfl

/-- A weight matrix with the scale folded in, column by column: `W · s`. -/
def foldedW1 (w : FVec Ideal S4x128 .f32) (s : FVec Ideal S128 .f32) : FVec Ideal S4x128 .f32 :=
  mulf w (broadcastInDim S4x128 ![0, 1] bcast_S1x128_S4x128_0_1 (broadcastInDim S1x128 ![1] bcast_S128_S1x128_1 s))
def foldedW2 (w : FVec Ideal S128x64 .f32) (s : FVec Ideal S64 .f32) : FVec Ideal S128x64 .f32 :=
  mulf w (broadcastInDim S128x64 ![0, 1] bcast_S1x64_S128x64_0_1 (broadcastInDim S1x64 ![1] bcast_S64_S1x64_1 s))
/-- A bias with the normalisation folded in, `(b − μ) · s + β`, as a one-row matrix. -/
def foldedB1 (b μ s β : FVec Ideal S128 .f32) : FVec Ideal S1x128 .f32 :=
  shapeCast S1x128 (addf (mulf (subf b μ) s) β) shapeCasts_S128_S1x128
def foldedB2 (b μ s β : FVec Ideal S64 .f32) : FVec Ideal S1x64 .f32 :=
  shapeCast S1x64 (addf (mulf (subf b μ) s) β) shapeCasts_S64_S1x64

theorem foldedW1_apply (w : FVec Ideal S4x128 .f32) (s : FVec Ideal S128 .f32) (l : Fin 4) (k : Fin 128) :
    foldedW1 w s (ix2 l k) = w (ix2 l k) * s (ix1 k) := by
  unfold foldedW1
  rw [mulf_apply, Cert.Lib.broadcastInDim_1b_ab_apply, Cert.Lib.broadcastInDim_a_1a_apply]
theorem foldedW2_apply (w : FVec Ideal S128x64 .f32) (s : FVec Ideal S64 .f32) (k : Fin 128) (q : Fin 64) :
    foldedW2 w s (ix2 k q) = w (ix2 k q) * s (ix1 q) := by
  unfold foldedW2
  rw [mulf_apply, Cert.Lib.broadcastInDim_1b_ab_apply, Cert.Lib.broadcastInDim_a_1a_apply]
theorem foldedB1_apply (b μ s β : FVec Ideal S128 .f32) (k : Fin 128) :
    foldedB1 b μ s β (ix2 (0 : Fin 1) k) = (b (ix1 k) - μ (ix1 k)) * s (ix1 k) + β (ix1 k) := by
  unfold foldedB1
  rw [shapeCast_a_1a_apply]
  rfl
theorem foldedB2_apply (b μ s β : FVec Ideal S64 .f32) (q : Fin 64) :
    foldedB2 b μ s β (ix2 (0 : Fin 1) q) = (b (ix1 q) - μ (ix1 q)) * s (ix1 q) + β (ix1 q) := by
  unfold foldedB2
  rw [shapeCast_a_1a_apply]
  rfl

/-- The first folded weight, `W₁ · s₁` column by column. -/
theorem entry_w1 (c : Dev nD) : V m c main_v24 = foldedW1 (m ((c : Thread nD τ).loc main_arg2)) (scale1 m c) := by
  show StableHlo.after hostOps0 (fun b => m (c, b)) (Proc.devRef .tc main_v24) = _
  after_results_simp
  rfl

/-- The first folded bias, `(b₁ − μ₁) · s₁ + β₁`, as a one-row matrix. -/
theorem entry_b1 (c : Dev nD) : V m c main_v38
    = foldedB1 (m ((c : Thread nD τ).loc main_arg3)) (m ((c : Thread nD τ).loc main_arg6)) (scale1 m c) (m ((c : Thread nD τ).loc main_arg5)) := by
  show StableHlo.after hostOps0 (fun b => m (c, b)) (Proc.devRef .tc main_v38) = _
  after_results_simp
  rfl

/-- The second folded weight, `W₂ · s₂` column by column. -/
theorem entry_w2 (c : Dev nD) : V m c main_v34 = foldedW2 (m ((c : Thread nD τ).loc main_arg8)) (scale2 m c) := by
  show StableHlo.after hostOps0 (fun b => m (c, b)) (Proc.devRef .tc main_v34) = _
  after_results_simp
  rfl

/-- The second folded bias, `(b₂ − μ₂) · s₂ + β₂`, as a one-row matrix. -/
theorem entry_b2 (c : Dev nD) : V m c main_v39
    = foldedB2 (m ((c : Thread nD τ).loc main_arg9)) (m ((c : Thread nD τ).loc main_arg12)) (scale2 m c) (m ((c : Thread nD τ).loc main_arg11)) := by
  show StableHlo.after hostOps0 (fun b => m (c, b)) (Proc.devRef .tc main_v39) = _
  after_results_simp
  rfl

end Cert.Bridge

end
-- ==== Proof.RefIndex.lean ====
/-
  The reference's two layers at one element.

  Read at row `P` and column `k`, the reference's first rectified layer is
  `max (((∑ l, h0 (P, l) · W₁ (l, k) + b₁ k) − μ₁ k) · s₁ k + β₁ k) 0` with `h0` its layer input and `s₁ = g₁ · rsqrt (v₁ + ε)`,
  and its second the same expression of the first layer's row `P` with the second layer's parameters.
-/
import proofs.«107156_j19413252178639_2_alg».proof.Proof.RefRead
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.ReferenceIdeal Cert.ReferenceIdeal.Read

/-- The vector index a `[n, a]` index reaches through the two row broadcasts `[a] → [1, a] → [n, a]`. -/
theorem row_idx_128 (f : S1x128.Idx → S128.Idx) (g : S500000x128.Idx → S1x128.Idx)
    (hf : ∀ i, (f i 0).val = (i 1).val) (hg : ∀ i, (g i 1).val = (i 1).val) (P : Fin 500000) (k : Fin 128) :
    f (g (ix2 P k)) = ix1 k :=
  funext fun a => Fin.ext (by match a with | ⟨0, _⟩ => exact (hf _).trans (hg _))

theorem row_idx_64 (f : S1x64.Idx → S64.Idx) (g : S500000x64.Idx → S1x64.Idx)
    (hf : ∀ i, (f i 0).val = (i 1).val) (hg : ∀ i, (g i 1).val = (i 1).val) (P : Fin 500000) (q : Fin 64) :
    f (g (ix2 P q)) = ix1 q :=
  funext fun a => Fin.ext (by match a with | ⟨0, _⟩ => exact (hf _).trans (hg _))

/-- The reference's first rectified layer at row `P`, column `k`. -/
theorem ref_hidden_apply (x0 : FVec Ideal S500000x4 .f32) (x1 : FVec Ideal S_ .f32) (x2 : FVec Ideal S4x128 .f32)
    (x3 x4 x5 x6 x7 : FVec Ideal S128 .f32) (x16 : IVec S2x16000000 32) (P : Fin 500000) (k : Fin 128) :
    val_main_v35 (F := Ideal) x0 x1 x2 x3 x4 x5 x6 x7 x16 (ix2 P k)
      = max ((((∑ l : Fin 4, val_main_v17 (F := Ideal) x0 x1 x16 (ix2 P l) * x2 (ix2 l k)) + x3 (ix1 k)) - x6 (ix1 k))
          * val_main_v28 (F := Ideal) x4 x7 (ix1 k) + x5 (ix1 k)) 0 := by
  rw [val_main_v35_apply, val_main_v34_apply, val_main_v31_apply, val_main_v24_apply, val_main_v21_apply, val_main_v18_apply,
    val_main_v20_apply, val_main_v19_apply, val_main_v23_apply, val_main_v22_apply, val_main_v30_apply, val_main_v29_apply,
    val_main_v33_apply, val_main_v32_apply, val_main_call0_v0_apply, val_main_call0_cst_apply]
  have el : ∀ l : Fin 4, lidx_main_v18 (ix2 P k) l = ix2 P l := fun l =>
    funext fun a => Fin.ext (by match a with | ⟨0, _⟩ => rfl | ⟨1, _⟩ => rfl)
  have er : ∀ l : Fin 4, ridx_main_v18 (ix2 P k) l = ix2 l k := fun l =>
    funext fun a => Fin.ext (by match a with | ⟨0, _⟩ => rfl | ⟨1, _⟩ => rfl)
  have e3 := row_idx_128 idx_main_v19 idx_main_v20 (fun _ => rfl) (fun _ => rfl) P k
  have e6 := row_idx_128 idx_main_v22 idx_main_v23 (fun _ => rfl) (fun _ => rfl) P k
  have e4 := row_idx_128 idx_main_v29 idx_main_v30 (fun _ => rfl) (fun _ => rfl) P k
  have e5 := row_idx_128 idx_main_v32 idx_main_v33 (fun _ => rfl) (fun _ => rfl) P k
  simp only [el, er, e3, e6, e4, e5, Ideal.maximumf_def, Ideal.addf_def, Ideal.mulf_def, Ideal.subf_def, Ideal.ofBits_def, Ideal.ofBits_zero_f32]

/-- The reference's second rectified layer — its node features — at row `P`, column `q`. -/
theorem ref_out_apply (x0 : FVec Ideal S500000x4 .f32) (x1 : FVec Ideal S_ .f32) (x2 : FVec Ideal S4x128 .f32)
    (x3 x4 x5 x6 x7 : FVec Ideal S128 .f32) (x8 : FVec Ideal S128x64 .f32) (x9 x10 x11 x12 x13 : FVec Ideal S64 .f32)
    (x16 : IVec S2x16000000 32) (P : Fin 500000) (q : Fin 64) :
    val_main_v53 (F := Ideal) x0 x1 x2 x3 x4 x5 x6 x7 x8 x9 x10 x11 x12 x13 x16 (ix2 P q)
      = max ((((∑ k : Fin 128, val_main_v35 (F := Ideal) x0 x1 x2 x3 x4 x5 x6 x7 x16 (ix2 P k) * x8 (ix2 k q)) + x9 (ix1 q)) - x12 (ix1 q))
          * val_main_v46 (F := Ideal) x10 x13 (ix1 q) + x11 (ix1 q)) 0 := by
  rw [val_main_v53_apply, val_main_v52_apply, val_main_v49_apply, val_main_v42_apply, val_main_v39_apply, val_main_v36_apply,
    val_main_v38_apply, val_main_v37_apply, val_main_v41_apply, val_main_v40_apply, val_main_v48_apply, val_main_v47_apply,
    val_main_v51_apply, val_main_v50_apply, val_main_call1_v0_apply, val_main_call1_cst_apply]
  have el : ∀ k : Fin 128, lidx_main_v36 (ix2 P q) k = ix2 P k := fun k =>
    funext fun a => Fin.ext (by match a with | ⟨0, _⟩ => rfl | ⟨1, _⟩ => rfl)
  have er : ∀ k : Fin 128, ridx_main_v36 (ix2 P q) k = ix2 k q := fun k =>
    funext fun a => Fin.ext (by match a with | ⟨0, _⟩ => rfl | ⟨1, _⟩ => rfl)
  have e9 := row_idx_64 idx_main_v37 idx_main_v38 (fun _ => rfl) (fun _ => rfl) P q
  have e12 := row_idx_64 idx_main_v40 idx_main_v41 (fun _ => rfl) (fun _ => rfl) P q
  have e10 := row_idx_64 idx_main_v47 idx_main_v48 (fun _ => rfl) (fun _ => rfl) P q
  have e11 := row_idx_64 idx_main_v50 idx_main_v51 (fun _ => rfl) (fun _ => rfl) P q
  simp only [el, er, e9, e12, e10, e11, Ideal.maximumf_def, Ideal.addf_def, Ideal.mulf_def, Ideal.subf_def, Ideal.ofBits_def, Ideal.ofBits_zero_f32]

/-- The scale `g · rsqrt (v + ε)` at an index, for each of the two normalisations. -/
theorem scale1_apply (x4 x7 : FVec Ideal S128 .f32) (i : S128.Idx) :
    val_main_v28 (F := Ideal) x4 x7 i = x4 i * Ideal.rsqrt (x7 i + Ideal.ofBits .f32 0x3727C5AC#32) := by
  rw [val_main_v28_apply, val_main_v27_apply, val_main_v26_apply, val_main_v25_apply, val_main_cst_2_apply]
  simp only [Ideal.mulf_def, Ideal.addf_def, Ideal.hostUnary_rsqrt_def, Ideal.ofBits_def]

theorem scale2_apply (x10 x13 : FVec Ideal S64 .f32) (i : S64.Idx) :
    val_main_v46 (F := Ideal) x10 x13 i = x10 i * Ideal.rsqrt (x13 i + Ideal.ofBits .f32 0x3727C5AC#32) := by
  rw [val_main_v46_apply, val_main_v45_apply, val_main_v44_apply, val_main_v43_apply, val_main_cst_3_apply]
  simp only [Ideal.mulf_def, Ideal.addf_def, Ideal.hostUnary_rsqrt_def, Ideal.ofBits_def]

end Cert.Bridge

end
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.FoldedAffine.lean ====
/-
  The one algebraic law of this certificate: a batch normalisation in inference mode is an affine map, so it may be
  folded into the linear layer in front of it.

  For a row `h` of reals, a weight column `w`, a bias `b`, a running mean `μ`, a scale `s` (the learnt gain times the
  reciprocal square root of the running variance plus ε) and a shift `β`,

      ∑ k, h k · (w k · s) + ((b − μ) · s + β)  =  ((∑ k, h k · w k + b) − μ) · s + β .

  On the extended reals the left-hand side distributes the factor `s` over a sum, which is only valid when the
  summands are finite: the law is therefore stated for (coercions of) reals, and the certificate supplies finiteness
  of every operand from its precondition.  A rectifier `max · 0` applied to both sides preserves the equation, and
  its value is again a real.
-/
import Mathlib.Data.EReal.Operations
import Mathlib.Algebra.BigOperators.Ring.Finset
import Mathlib.Tactic.Ring
import proofs.«107156_j19413252178639_2_alg».proof.Proof.LibERealSum

open scoped BigOperators

namespace Cert.Bridge

/-- The law over the reals. -/
theorem folded_affine_real {κ : Type*} [Fintype κ] (h w : κ → ℝ) (s b μ β : ℝ) :
    ∑ k, h k * (w k * s) + ((b - μ) * s + β) = ((∑ k, h k * w k + b) - μ) * s + β := by
  have e : ∑ k, h k * (w k * s) = (∑ k, h k * w k) * s := by
    rw [Finset.sum_mul]
    exact Finset.sum_congr rfl fun k _ => (mul_assoc _ _ _).symm
  rw [e]; ring

/-- A finite sum of products of reals, read on the extended reals, is the coercion of the real sum. -/
theorem coe_sum_mul {κ : Type*} [Fintype κ] (h w : κ → ℝ) :
    ∑ k, ((h k : ℝ) : EReal) * ((w k : ℝ) : EReal) = ((∑ k, h k * w k : ℝ) : EReal) := by
  rw [Cert.Lib.EReal_coe_finset_sum]
  exact Finset.sum_congr rfl fun k _ => (EReal.coe_mul _ _).symm

/-- The law on the extended reals, for operands that are reals: the linear layer with the normalisation folded into
    its weights and bias (left) is the linear layer followed by the normalisation (right). -/
theorem folded_affine {κ : Type*} [Fintype κ] (h w : κ → ℝ) (s b μ β : ℝ) :
    ∑ k, ((h k : ℝ) : EReal) * (((w k : ℝ) : EReal) * ((s : ℝ) : EReal)) + ((((b : ℝ) : EReal) - ((μ : ℝ) : EReal)) * ((s : ℝ) : EReal) + ((β : ℝ) : EReal))
      = ((∑ k, ((h k : ℝ) : EReal) * ((w k : ℝ) : EReal) + ((b : ℝ) : EReal)) - ((μ : ℝ) : EReal)) * ((s : ℝ) : EReal) + ((β : ℝ) : EReal) := by
  have e1 : ∑ k, ((h k : ℝ) : EReal) * (((w k : ℝ) : EReal) * ((s : ℝ) : EReal)) = ((∑ k, h k * (w k * s) : ℝ) : EReal) := by
    rw [Cert.Lib.EReal_coe_finset_sum]
    exact Finset.sum_congr rfl fun k _ => by rw [EReal.coe_mul, EReal.coe_mul]
  rw [e1, coe_sum_mul, ← EReal.coe_sub, ← EReal.coe_mul, ← EReal.coe_add, ← EReal.coe_add, ← EReal.coe_add,
    ← EReal.coe_sub, ← EReal.coe_mul, ← EReal.coe_add, folded_affine_real]

/-- The right-hand side of the law is a real, and so is its rectification. -/
theorem affine_real {κ : Type*} [Fintype κ] (h w : κ → ℝ) (s b μ β : ℝ) :
    max (((∑ k, ((h k : ℝ) : EReal) * ((w k : ℝ) : EReal) + ((b : ℝ) : EReal)) - ((μ : ℝ) : EReal)) * ((s : ℝ) : EReal) + ((β : ℝ) : EReal)) 0
      = ((max (((∑ k, h k * w k + b) - μ) * s + β) 0 : ℝ) : EReal) := by
  rw [coe_sum_mul, ← EReal.coe_add, ← EReal.coe_sub, ← EReal.coe_mul, ← EReal.coe_add, ← EReal.coe_zero]
  exact (EReal.coe_strictMono.monotone.map_max).symm

end Cert.Bridge
-- ==== Proof.TwoLayers.lean ====
/-
  Folding the normalisations, layer by layer.

  With every operand a real number, a dense layer whose weights and bias carry the folded normalisation equals the dense layer
  followed by the normalisation (the affine law), and its rectified value is again a real — so the law applies to the next
  layer too, whose input row is the first layer's rectified output.
-/
import proofs.«107156_j19413252178639_2_alg».proof.Proof.Payload
import proofs.«107156_j19413252178639_2_alg».proof.Proof.FoldedAffine

noncomputable section

namespace Cert.Bridge

open scoped BigOperators

/-- One layer: the folded form is the normalised form, and the normalised form's rectified value is a real. -/
theorem layer_fold {n k : ℕ} (row : Fin n → EReal) (w : Fin n → Fin k → EReal) (s b μ β : Fin k → EReal)
    (hrow : ∀ l, ∃ r : ℝ, row l = (r : EReal)) (hw : ∀ l c, ∃ r : ℝ, w l c = (r : EReal))
    (hs : ∀ c, ∃ r : ℝ, s c = (r : EReal)) (hb : ∀ c, ∃ r : ℝ, b c = (r : EReal))
    (hμ : ∀ c, ∃ r : ℝ, μ c = (r : EReal)) (hβ : ∀ c, ∃ r : ℝ, β c = (r : EReal)) (c : Fin k) :
    layer row (fun l c => w l c * s c) (fun c => (b c - μ c) * s c + β c) c
        = max ((((∑ l, row l * w l c) + b c) - μ c) * s c + β c) 0
      ∧ ∃ r : ℝ, max ((((∑ l, row l * w l c) + b c) - μ c) * s c + β c) 0 = (r : EReal) := by
  choose rr hrr using hrow
  choose ww hww using hw
  choose ss hss using hs
  choose bb hbb using hb
  choose μμ hμμ using hμ
  choose ββ hββ using hβ
  unfold layer
  simp only [hrr, hww, hss, hbb, hμμ, hββ]
  exact ⟨congrArg (max · 0) (folded_affine (fun l => rr l) (fun l => ww l c) (ss c) (bb c) (μμ c) (ββ c)),
    _, affine_real (fun l => rr l) (fun l => ww l c) (ss c) (bb c) (μμ c) (ββ c)⟩

/-- Two layers: the folded network equals the network with its normalisations, at every output. -/
theorem two_layers_fold {n k j : ℕ} (row : Fin n → EReal)
    (w1 : Fin n → Fin k → EReal) (s1 b1 μ1 β1 : Fin k → EReal)
    (w2 : Fin k → Fin j → EReal) (s2 b2 μ2 β2 : Fin j → EReal)
    (hrow : ∀ l, ∃ r : ℝ, row l = (r : EReal)) (hw1 : ∀ l c, ∃ r : ℝ, w1 l c = (r : EReal))
    (hs1 : ∀ c, ∃ r : ℝ, s1 c = (r : EReal)) (hb1 : ∀ c, ∃ r : ℝ, b1 c = (r : EReal))
    (hμ1 : ∀ c, ∃ r : ℝ, μ1 c = (r : EReal)) (hβ1 : ∀ c, ∃ r : ℝ, β1 c = (r : EReal))
    (hw2 : ∀ l c, ∃ r : ℝ, w2 l c = (r : EReal))
    (hs2 : ∀ c, ∃ r : ℝ, s2 c = (r : EReal)) (hb2 : ∀ c, ∃ r : ℝ, b2 c = (r : EReal))
    (hμ2 : ∀ c, ∃ r : ℝ, μ2 c = (r : EReal)) (hβ2 : ∀ c, ∃ r : ℝ, β2 c = (r : EReal)) (q : Fin j) :
    layer (layer row (fun l c => w1 l c * s1 c) (fun c => (b1 c - μ1 c) * s1 c + β1 c))
        (fun l c => w2 l c * s2 c) (fun c => (b2 c - μ2 c) * s2 c + β2 c) q
      = max ((((∑ c, max ((((∑ l, row l * w1 l c) + b1 c) - μ1 c) * s1 c + β1 c) 0 * w2 c q) + b2 q) - μ2 q) * s2 q + β2 q) 0 := by
  have e1 : layer row (fun l c => w1 l c * s1 c) (fun c => (b1 c - μ1 c) * s1 c + β1 c)
      = fun c => max ((((∑ l, row l * w1 l c) + b1 c) - μ1 c) * s1 c + β1 c) 0 :=
    funext fun c => (layer_fold row w1 s1 b1 μ1 β1 hrow hw1 hs1 hb1 hμ1 hβ1 c).1
  rw [e1]
  exact (layer_fold _ w2 s2 b2 μ2 β2 (fun c => (layer_fold row w1 s1 b1 μ1 β1 hrow hw1 hs1 hb1 hμ1 hβ1 c).2)
    hw2 hs2 hb2 hμ2 hβ2 q).1

end Cert.Bridge

end
-- ==== Proof.InputReal.lean ====
/-
  The reference's first stage is real-valued on real inputs. The stage is
  `(1 + ε) · x + agg`, where `ε` is a scalar input, `x` the input array, and `agg` the accumulating
  scatter of gathered rows of `x` into an array of zeros: at each index, zero plus a finite sum of
  elements of `x`. On the extended reals the sum and the product of two reals are reals
  (the coercion is additive and multiplicative), a finite sum of reals is a real (induction on the
  index set), the constant one is a real, and a gathered element is an element of `x`. So if `x` and
  `ε` hold reals, every element of the stage is a real.
-/
import proofs.«107156_j19413252178639_2_alg».proof.Proof.RefRead
import Idealize.ShloMosaic.PureOps.Ideal
import Idealize.ShloMosaic.PureOps.Ideal.Laws

namespace Cert.Bridge

open Cert.ReferenceIdeal Cert.ReferenceIdeal.Gen Cert.ReferenceIdeal.Read Idealize.ShloMosaic Idealize.SL.Sem
open scoped BigOperators

/-- The sum of two reals, taken in the extended reals, is a real. -/
theorem isReal_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals, taken in the extended reals, is a real. -/
theorem isReal_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals, taken in the extended reals, is a real: by induction on the index set,
    the empty sum is `0` and each further term adds a real to a real. -/
theorem isReal_finset_sum {ι : Type*} (s : Finset ι) (f : ι → EReal) (hf : ∀ j, ∃ r : ℝ, f j = (r : EReal)) :
    ∃ r : ℝ, ∑ j ∈ s, f j = (r : EReal) := by
  classical
  induction s using Finset.induction_on with
  | empty => exact ⟨0, by simp⟩
  | insert a s ha ih =>
    rw [Finset.sum_insert ha]
    exact isReal_add (hf a) ih

/-- The binary32 pattern of one denotes the real number one: exponent field 127, fraction zero,
    so the value is `2^23 · 2^(127 - 127 - 23) = 1`. -/
theorem ofBits_one_f32 : Ideal.ofBits .f32 0x3F800000#32 = ((1 : ℝ) : EReal) := by
  simp [Ideal.ofBits, Ideal.ieee, -EReal.coe_mul]
  norm_num

/-- An accumulating scatter on the extended reals — at each index the operand element plus the finite sum
    of the updates that land there — of a real-valued operand and real-valued updates is real-valued. -/
theorem isReal_hostScatterAdd {s si su : Shape} (d : ScatterDims s si su) {w : Nat} (x : s.Idx → EReal)
    (idx : IVec si w) (upd : su.Idx → EReal) (hx : ∀ i, ∃ r : ℝ, x i = (r : EReal))
    (hu : ∀ j, ∃ r : ℝ, upd j = (r : EReal)) :
    ∀ i, ∃ r : ℝ, Ideal.hostScatterAdd d x idx upd i = (r : EReal) := by
  intro i
  unfold Ideal.hostScatterAdd
  exact isReal_add (hx i) (isReal_finset_sum _ _ hu)

/-- If the input array and the scalar hold reals, then every element of `(1 + ε) · x + agg` is a real. -/
theorem input_real (x0 : (⟨S500000x4, .f32⟩ : BufTy).Contents (Elt Ideal))
    (x1 : (⟨S_, .f32⟩ : BufTy).Contents (Elt Ideal))
    (x16 : (⟨S2x16000000, .i32⟩ : BufTy).Contents (Elt Ideal))
    (h0 : ∀ i, ∃ r : ℝ, x0 i = (r : EReal)) (h1 : ∀ i, ∃ r : ℝ, x1 i = (r : EReal)) :
    ∀ i, ∃ r : ℝ, Cert.ReferenceIdeal.Read.val_main_v17 (F := Ideal) x0 x1 x16 i = (r : EReal) := by
  intro i
  rw [val_main_v17_apply]
  refine isReal_add ?_ ?_
  · -- the scaled input: `(1 + ε) · x i`
    rw [val_main_v16_apply, val_main_v15_apply, val_main_v14_apply, val_main_cst_1_apply]
    exact isReal_mul (isReal_add ⟨1, ofBits_one_f32⟩ (h1 _)) (h0 i)
  · -- the aggregate: an accumulating scatter of gathered elements of `x` into an array of zeros
    -- every element of the array of zeros is the real number zero
    have hz : ∀ k, ∃ r : ℝ, val_main_v11 (F := Ideal) k = (r : EReal) := fun k => by
      rw [val_main_v11_apply, val_main_cst_apply]
      exact ⟨0, Ideal.ofBits_zero_f32⟩
    -- every gathered element is an element of `x`
    have hg : ∀ j, ∃ r : ℝ, val_main_v10 (F := Ideal) x0 x16 j = (r : EReal) := fun j =>
      h0 (gather_S500000x4_S16000000x1_S16000000x4_1_0_n_n_0_1_14.operandIdx j (val_main_v9 (F := Ideal) x16))
    -- the aggregate is, by definition, the accumulating scatter of the gathered elements into the zeros
    have e : val_main_v13 (F := Ideal) x0 x16
        = Ideal.hostScatterAdd scatter_S500000x4_S16000000x1_S16000000x4_1_0_0_1
            (val_main_v11 (F := Ideal)) (val_main_v12 (F := Ideal) x16) (val_main_v10 (F := Ideal) x0 x16) :=
      Ideal.hostScatterAdd_def _ .single _ _ _
    rw [e]
    exact isReal_hostScatterAdd _ _ _ _ hz hg i

end Cert.Bridge
-- ==== Proof.Equal.lean ====
/-
  The two programs compute the same node features.

  The kernel's launch leaves `mlpArr` of the layer input and the FOLDED weights and biases; the reference computes the two dense
  layers each followed by its normalisation and the rectifier. Under the precondition every operand is a real number — the
  inputs by hypothesis, the layer input as a finite sum of products of reals, and each scale `g · rsqrt (v + ε)` because
  `v ≥ 0` and `ε > 0` keep the reciprocal square root at a positive real argument — so the affine law applies row by row.
-/
import proofs.«107156_j19413252178639_2_alg».proof.Proof.Blocks
import proofs.«107156_j19413252178639_2_alg».proof.Proof.Prologue
import proofs.«107156_j19413252178639_2_alg».proof.Proof.RefIndex
import proofs.«107156_j19413252178639_2_alg».proof.Proof.TwoLayers
import proofs.«107156_j19413252178639_2_alg».proof.Proof.InputReal

set_option maxRecDepth 16384

noncomputable section

namespace Cert.Bridge

open Idealize.ShloMosaic Idealize.ShloMosaic.TcCoe Idealize.ShloMosaic.ValueIdx Idealize.SL.Sem
open Cert.ReferenceIdeal Cert.ReferenceIdeal.Read

/-- The normalisations' ε, the binary32 number nearest 1e-5, is a positive real. -/
theorem eps_pos : ∃ e : ℝ, 0 < e ∧ Ideal.ofBits .f32 0x3727C5AC#32 = (e : EReal) := by
  have h : Ideal.ofBits .f32 0x3727C5AC#32 = ((((2 ^ 23 + 2606508 : ℕ) : ℝ) * (2 : ℝ) ^ ((110 : ℤ) - 127 - 23) : ℝ) : EReal) := by
    simp [Ideal.ofBits, Ideal.ieee]
  exact ⟨_, by positivity, h⟩

/-- The reciprocal square root of a positive real is a real. -/
theorem rsqrt_pos_real (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A scale `g · rsqrt (v + ε)` with `g` real and `v` a nonnegative real is a real. -/
theorem scale_real (g v : EReal) (hg : ∃ r : ℝ, g = (r : EReal)) (hv : ∃ r : ℝ, v = (r : EReal)) (h0 : 0 ≤ v) :
    ∃ r : ℝ, g * Ideal.rsqrt (v + Ideal.ofBits .f32 0x3727C5AC#32) = (r : EReal) := by
  obtain ⟨gr, rfl⟩ := hg
  obtain ⟨vr, rfl⟩ := hv
  obtain ⟨e, he, hE⟩ := eps_pos
  have hv0 : 0 ≤ vr := EReal.coe_nonneg.mp h0
  rw [hE, ← EReal.coe_add, rsqrt_pos_real _ (add_pos_of_nonneg_of_pos hv0 he), ← EReal.coe_mul]
  exact ⟨_, rfl⟩

/-- THE NODE FEATURES AGREE: the folded two layers of the layer input are the reference's second rectified layer. -/
theorem features_eq (x0 : FVec Ideal S500000x4 .f32) (x1 : FVec Ideal S_ .f32) (x2 : FVec Ideal S4x128 .f32)
    (x3 x4 x5 x6 x7 : FVec Ideal S128 .f32) (x8 : FVec Ideal S128x64 .f32) (x9 x10 x11 x12 x13 : FVec Ideal S64 .f32)
    (x16 : IVec S2x16000000 32)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal)) (h11 : ∀ i, ∃ r : ℝ, x11 i = (r : EReal))
    (h12 : ∀ i, ∃ r : ℝ, x12 i = (r : EReal)) (h13 : ∀ i, ∃ r : ℝ, x13 i = (r : EReal))
    (p7 : ∀ i, (0 : EReal) ≤ x7 i) (p13 : ∀ i, (0 : EReal) ≤ x13 i) :
    mlpArr (val_main_v17 (F := Ideal) x0 x1 x16) (foldedW1 x2 (val_main_v28 (F := Ideal) x4 x7))
        (foldedB1 x3 x6 (val_main_v28 (F := Ideal) x4 x7) x5) (foldedW2 x8 (val_main_v46 (F := Ideal) x10 x13))
        (foldedB2 x9 x12 (val_main_v46 (F := Ideal) x10 x13) x11)
      = val_main_v53 (F := Ideal) x0 x1 x2 x3 x4 x5 x6 x7 x8 x9 x10 x11 x12 x13 x16 := by
  funext i
  obtain ⟨P, q, rfl⟩ : ∃ (P : Fin 500000) (q : Fin 64), i = ix2 P q := ⟨i 0, i 1, eq_ix2 i⟩
  rw [ref_out_apply]
  show mlpAt (val_main_v17 (F := Ideal) x0 x1 x16) (foldedW1 x2 (val_main_v28 (F := Ideal) x4 x7))
        (foldedB1 x3 x6 (val_main_v28 (F := Ideal) x4 x7) x5) (foldedW2 x8 (val_main_v46 (F := Ideal) x10 x13))
        (foldedB2 x9 x12 (val_main_v46 (F := Ideal) x10 x13) x11) P q = _
  unfold mlpAt
  simp only [foldedW1_apply, foldedB1_apply, foldedW2_apply, foldedB2_apply, ref_hidden_apply]
  exact two_layers_fold (fun l => val_main_v17 (F := Ideal) x0 x1 x16 (ix2 P l)) (fun l c => x2 (ix2 l c))
    (fun c => val_main_v28 (F := Ideal) x4 x7 (ix1 c)) (fun c => x3 (ix1 c)) (fun c => x6 (ix1 c)) (fun c => x5 (ix1 c))
    (fun l c => x8 (ix2 l c)) (fun c => val_main_v46 (F := Ideal) x10 x13 (ix1 c)) (fun c => x9 (ix1 c)) (fun c => x12 (ix1 c))
    (fun c => x11 (ix1 c))
    (fun l => input_real x0 x1 x16 h0 h1 _) (fun l c => h2 _)
    (fun c => by rw [scale1_apply]; exact scale_real _ _ (h4 _) (h7 _) (p7 _)) (fun c => h3 _) (fun c => h6 _) (fun c => h5 _)
    (fun l c => h8 _)
    (fun c => by rw [scale2_apply]; exact scale_real _ _ (h10 _) (h13 _) (p13 _)) (fun c => h9 _) (fun c => h12 _) (fun c => h11 _) q

end Cert.Bridge

end
-- ==== Proof.KernelTail.lean ====
/-
  After the launch: pooling, the output layer and the log-softmax, as ONE function of the launch's result.

  Both programs finish with the same host operations applied to the node features `h` (500000 × 64): the per-graph sums of `h`
  (a scatter-add by the graph index), the per-graph node counts (a scatter-add of ones), the mean `sums / max(count, 1)`, the
  output layer `· W₃ + b₃` and a row-wise log-softmax. They are carried here as the single function `head`, never opened: the
  certificate only needs that both programs apply it to equal arguments.
-/
import proofs.«107156_j19413252178639_2_alg».proof.Proof.Gen.KernelIdeal.Frame
import proofs.«107156_j19413252178639_2_alg».proof.Proof.Blocks
import Idealize.ShloMosaic.Lib.StableHlo.Run

set_option maxRecDepth 65536

noncomputable section

namespace Cert.Bridge

open Idealize.ShloMosaic Idealize.ShloMosaic.TcCoe Idealize.SL.Sem Idealize.ShloMosaic.StableHlo
open Cert.KernelIdeal Cert.KernelIdeal.Gen

/-- The row maximum used as the log-softmax's shift. -/
def rowMax (x : FVec Ideal S5000x2 .f32) : FVec Ideal S5000 .f32 :=
  maximumf (broadcastInDim S5000 ![] bcast_S_S5000 (constant (F := Ideal) S_ .f32 0xFF800000#32))
    (Host.reduce FloatOps.maximumf x (constant (F := Ideal) S_ .f32 0xFF800000#32) reducesTo_S5000x2_S5000_d1 h_S_)

/-- The logits minus their row maximum. -/
def shifted (x : FVec Ideal S5000x2 .f32) : FVec Ideal S5000x2 .f32 :=
  subf x (broadcastInDim S5000x2 ![0, 1] bcast_S5000x1_S5000x2_0_1 (broadcastInDim S5000x1 ![0] bcast_S5000_S5000x1_0 (rowMax x)))

/-- The row-wise log-softmax as the host computes it. -/
def logSoftmax (x : FVec Ideal S5000x2 .f32) : FVec Ideal S5000x2 .f32 :=
  subf (shifted x) (broadcastInDim S5000x2 ![0, 1] bcast_S5000x1_S5000x2_0_1 (Host.log (broadcastInDim S5000x1 ![0] bcast_S5000_S5000x1_0
    (Host.reduceAdd (Host.exp (shifted x)) (constant (F := Ideal) S_ .f32 0x00000000#32) reducesTo_S5000x2_S5000_d1 h_S_))))

/-- The per-graph mean of the node features. -/
def pooled (h : FVec Ideal S500000x64 .f32) (batch : IVec S500000 32) : FVec Ideal S5000x64 .f32 :=
  Host.divf
    (Host.scatterAdd scatter_S5000x64_S500000x1_S500000x64_1_0_0_1 (broadcastInDim S5000x64 ![] bcast_S_S5000x64 (constant (F := Ideal) S_ .f32 0x00000000#32))
      (broadcastInDim S500000x1 ![0] bcast_S500000_S500000x1_0 batch) h)
    (broadcastInDim S5000x64 ![0, 1] bcast_S5000x1_S5000x64_0_1
      (maximumf
        (Host.scatterAdd scatter_S5000x1_S500000x1_S500000x1_1_0_0_1 (broadcastInDim S5000x1 ![] bcast_S_S5000x1 (constant (F := Ideal) S_ .f32 0x00000000#32))
          (broadcastInDim S500000x1 ![0] bcast_S500000_S500000x1_0 batch) (broadcastInDim S500000x1 ![] bcast_S_S500000x1 (constant (F := Ideal) S_ .f32 0x3F800000#32)))
        (broadcastInDim S5000x1 ![] bcast_S_S5000x1 (constant (F := Ideal) S_ .f32 0x3F800000#32))))

/-- Everything after the launch: the pooled features through the output layer and the log-softmax. -/
def head (h : FVec Ideal S500000x64 .f32) (batch : IVec S500000 32) (w3 : FVec Ideal S64x2 .f32) (b3 : FVec Ideal S2 .f32) : FVec Ideal S5000x2 .f32 :=
  logSoftmax (addf (Host.dotGeneral dot_S5000x64_S64x2_S5000x2_1_0_0_1_n_n none (pooled h batch) w3)
    (broadcastInDim S5000x2 ![0, 1] bcast_S1x2_S5000x2_0_1 (broadcastInDim S1x2 ![1] bcast_S2_S1x2_1 b3)))

variable (m : (ℓ : Loc nD τ sig) → Buf (Elt Ideal) ℓ)

/-- The core's buffer contents when the launch is over: its arrays as the launch leaves them, everything else as it found it. -/
abbrev atExit (c : Dev nD) : Valuation τ sig (Elt Ideal) :=
  Pipeline.withArrays (cfgs 0).spec c (V0 m c) fun w => (dats m 0 c).arrAt w (cfgs 0).N

/-- The program's result is `head` of what the host finds after the launch. -/
theorem tail_of_exit (c : Dev nD) :
    Pipeline.afterTail₀ cfgs (dats m) 0 (V0 m) [hostOps1, hostOps1_1] c main_v56
      = head (atExit m c (Proc.devRef .tc main_v40)) (atExit m c (Proc.devRef .tc main_arg17))
          (atExit m c (Proc.devRef .tc main_arg14)) (atExit m c (Proc.devRef .tc main_arg15)) := by
  unfold Pipeline.afterTail₀
  simp only [hostOps1, hostOps1_1, List.flatten_cons, List.flatten_nil, List.append_nil, List.cons_append, List.nil_append]
  after_results_simp
  rfl

theorem exit_v40 (c : Dev nD) : (atExit m c (Proc.devRef .tc main_v40) : S500000x64.Idx → EReal)
    = mlpArr (V m c main_v17) (V m c main_v24) (V m c main_v38) (V m c main_v34) (V m c main_v39) :=
  (Pipeline.withArrays_arr spec0 launch0.win.arr_inj c _ _ 5).trans (result_array m c)

theorem exit_arg17 (c : Dev nD) : (atExit m c (Proc.devRef .tc main_arg17) : S500000.Idx → BitVec 32) = m ((c : Thread nD τ).loc main_arg17) :=
  (Pipeline.withArrays_of_ne spec0 c _ _ main_arg17 (by decide)).trans (V_main_arg17 m c)

theorem exit_arg14 (c : Dev nD) : (atExit m c (Proc.devRef .tc main_arg14) : S64x2.Idx → EReal) = m ((c : Thread nD τ).loc main_arg14) :=
  (Pipeline.withArrays_of_ne spec0 c _ _ main_arg14 (by decide)).trans (V_main_arg14 m c)

theorem exit_arg15 (c : Dev nD) : (atExit m c (Proc.devRef .tc main_arg15) : S2.Idx → EReal) = m ((c : Thread nD τ).loc main_arg15) :=
  (Pipeline.withArrays_of_ne spec0 c _ _ main_arg15 (by decide)).trans (V_main_arg15 m c)

/-- THE KERNEL'S RESULT: `head` of the two folded layers applied to the arrays the launch finds. -/
theorem kernel_result (c : Dev nD) :
    Pipeline.afterTail₀ cfgs (dats m) 0 (V0 m) [hostOps1, hostOps1_1] c main_v56
      = head (mlpArr (V m c main_v17) (V m c main_v24) (V m c main_v38) (V m c main_v34) (V m c main_v39))
          (m ((c : Thread nD τ).loc main_arg17)) (m ((c : Thread nD τ).loc main_arg14)) (m ((c : Thread nD τ).loc main_arg15)) := by
  rw [tail_of_exit, exit_v40, exit_arg17, exit_arg14, exit_arg15]

end Cert.Bridge

end
-- ==== Proof.KernelRun.lean ====
/-
  The kernel's program, run: every weakly fair execution terminates with the result buffer at `head` of the two folded layers of
  the arrays the launch finds, and the argument arrays unchanged. (The launch's frame run states what every buffer holds at the
  end; the result buffer is read through the host operations after the launch, the arguments as no operation writes them.)
-/
import proofs.«107156_j19413252178639_2_alg».proof.Proof.KernelTail

set_option maxRecDepth 65536

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c.tc : Thread nD τ).loc main_v56)
        = head (mlpArr (V m c main_v17) (V m c main_v24) (V m c main_v38) (V m c main_v34) (V m c main_v39))
            (m ((c : Thread nD τ).loc main_arg17)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨
      ((h c).2 main_v56 (Pipeline.mem_restRefs_of main_v56 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩) (run_main m ρ)

end Cert.Bridge

end
-- ==== Proof.RefTail.lean ====
/-
  The reference's result is the same closing function `head` of ITS node features (the second rectifier's output), because after
  that stage it applies the host operations the kernel's program applies after its launch.
-/
import proofs.«107156_j19413252178639_2_alg».proof.Proof.RefRead
import proofs.«107156_j19413252178639_2_alg».proof.Proof.KernelTail

set_option maxRecDepth 65536

noncomputable section

namespace Cert.Bridge

open Idealize.ShloMosaic Idealize.ShloMosaic.TcCoe Idealize.SL.Sem
open Cert.ReferenceIdeal Cert.ReferenceIdeal.Read

/-- THE REFERENCE'S RESULT: `head` of its second rectified layer. -/
theorem ref_result (x0 : FVec Ideal S500000x4 .f32) (x1 : FVec Ideal S_ .f32) (x2 : FVec Ideal S4x128 .f32) (x3 x4 x5 x6 x7 : FVec Ideal S128 .f32)
    (x8 : FVec Ideal S128x64 .f32) (x9 x10 x11 x12 x13 : FVec Ideal S64 .f32) (x14 : FVec Ideal S64x2 .f32) (x15 : FVec Ideal S2 .f32)
    (x16 : IVec S2x16000000 32) (x17 : IVec S500000 32) :
    val_main_v69 (F := Ideal) x0 x1 x2 x3 x4 x5 x6 x7 x8 x9 x10 x11 x12 x13 x14 x15 x16 x17
      = head (val_main_v53 (F := Ideal) x0 x1 x2 x3 x4 x5 x6 x7 x8 x9 x10 x11 x12 x13 x16) x17 x14 x15 := rfl

end Cert.Bridge

end
-- ==== Proof.lean ====
/-
  The certificate of a graph-isomorphism-network forward pass — neighbour aggregation, two dense layers each followed by a batch
  normalisation (inference mode) and a rectifier, mean pooling per graph, an output layer and a log-softmax — whose kernel
  computes the two dense layers in one launch over blocks of 10000 nodes with the normalisations FOLDED into the layers' weights
  and biases, against the reference that applies each normalisation after its layer.

  The mathematics. A normalisation in inference mode is the affine map `y ↦ (y − μ) · s + β` with `s = g · rsqrt (v + ε)`, so
  `((h · W + b) − μ) · s + β = h · (W · s) + ((b − μ) · s + β)`: the kernel's program computes the right-hand side, the reference
  the left. On the extended reals the law distributes the factor `s` over the sum `h · W`, which needs the summands finite: the
  precondition gives every float input finite and the running variances nonnegative (so that `rsqrt (v + ε)` is taken at a
  positive real and `s` is a real), the layer input is a finite sum of products of reals, and the first layer's rectified output
  is a real again. Everything else is shared: both programs compute the layer input by the same host operations, and both
  finish with the same pooling, output layer and log-softmax, carried as one function `head` of the node features.

  The modules: `FoldedAffine` (the law), `Payload` (the kernel's body at an element), `Blocks` (the launch's blocks tile the
  result array), `Prologue` (the folded weights and biases the launch finds), `KernelTail` / `KernelRun` (the host operations
  after the launch, and the program's run), `RefIndex` / `RefTail` (the reference's layers at an element, and its result as
  `head` of its node features), `Finite` / `InputReal` (the operands are reals), `TwoLayers` / `Equal` (the node features
  agree).
-/
import proofs.«107156_j19413252178639_2_alg».proof.Defs
import proofs.«107156_j19413252178639_2_alg».proof.Proof.Gen.Kernel
import proofs.«107156_j19413252178639_2_alg».proof.Proof.Gen.Kernel.Skeleton
import proofs.«107156_j19413252178639_2_alg».proof.Proof.Gen.Kernel.Launch
import proofs.«107156_j19413252178639_2_alg».proof.Proof.Gen.Kernel.Points
import proofs.«107156_j19413252178639_2_alg».proof.Proof.Gen.Kernel.Frame
import proofs.«107156_j19413252178639_2_alg».proof.Proof.Gen.KernelIdeal
import proofs.«107156_j19413252178639_2_alg».proof.Proof.Gen.KernelIdeal.Skeleton
import proofs.«107156_j19413252178639_2_alg».proof.Proof.Gen.KernelIdeal.Launch
import proofs.«107156_j19413252178639_2_alg».proof.Proof.Gen.KernelIdeal.Points
import proofs.«107156_j19413252178639_2_alg».proof.Proof.Gen.KernelIdeal.Frame
import proofs.«107156_j19413252178639_2_alg».proof.Proof.Gen.ReferenceIdeal
import proofs.«107156_j19413252178639_2_alg».proof.Proof.Gen.Pre_finite_inputs
import proofs.«107156_j19413252178639_2_alg».proof.Proof.RefRun
import proofs.«107156_j19413252178639_2_alg».proof.Proof.RefRead
import proofs.«107156_j19413252178639_2_alg».proof.Proof.Finite
import proofs.«107156_j19413252178639_2_alg».proof.Proof.Equal
import proofs.«107156_j19413252178639_2_alg».proof.Proof.KernelRun
import proofs.«107156_j19413252178639_2_alg».proof.Proof.RefTail
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Under the precondition, the array the kernel's launch leaves is the reference's node features of the same arguments. -/
theorem launch_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Bridge.mlpArr (Cert.KernelIdeal.Gen.V m c Cert.KernelIdeal.main_v17) (Cert.KernelIdeal.Gen.V m c Cert.KernelIdeal.main_v24)
        (Cert.KernelIdeal.Gen.V m c Cert.KernelIdeal.main_v38) (Cert.KernelIdeal.Gen.V m c Cert.KernelIdeal.main_v34)
        (Cert.KernelIdeal.Gen.V m c Cert.KernelIdeal.main_v39)
      = Cert.ReferenceIdeal.Read.val_main_v53 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg16)) := by
  rw [Cert.Bridge.entry_h0, Cert.Bridge.entry_w1, Cert.Bridge.entry_b1, Cert.Bridge.entry_w2, Cert.Bridge.entry_b2]
  obtain ⟨h0, h1, h2, h3, h4, h5, h6, h7, h8, h9, h10, h11, h12, h13, p7, p13⟩ :=
    Cert.Bridge.finite_of_pre _ _ _ _ _ _ _ _ _ _ _ _ _ _ _ _ _ _ (hpre c)
  exact Cert.Bridge.features_eq _ _ _ _ _ _ _ _ _ _ _ _ _ _ _ h0 h1 h2 h3 h4 h5 h6 h7 h8 h9 h10 h11 h12 h13 p7 p13

set_option maxHeartbeats 1600000 in
/-- The reference's result, from a memory that agrees with the kernel's on the arguments, is `head` of the node features of the
    kernel's arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v69 m' c
      = Cert.Bridge.head (Cert.ReferenceIdeal.Read.val_main_v53 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg16)))
          (m ((c : Thread Cert.KernelIdeal.nD Cert.KernelIdeal.τ).loc Cert.KernelIdeal.main_arg17)) (m ((c : Thread Cert.KernelIdeal.nD Cert.KernelIdeal.τ).loc Cert.KernelIdeal.main_arg14)) (m ((c : Thread Cert.KernelIdeal.nD Cert.KernelIdeal.τ).loc Cert.KernelIdeal.main_arg15)) := by
  obtain ⟨e0, e1, e2, e3, e4, e5, e6, e7, e8, e9, e10, e11, e12, e13, e14, e15, e16, e17⟩ := hagree
  rw [Cert.ReferenceIdeal.Read.val_main_v69_eq, e0, e1, e2, e3, e4, e5, e6, e7, e8, e9, e10, e11, e12, e13, e14, e15, e16, e17]
  exact Cert.Bridge.ref_result _ _ _ _ _ _ _ _ _ _ _ _ _ _ _ _ _ _

/-- From memories agreeing on the arguments both idealized programs end with `head` of the same node features. -/
theorem algebraic : Cert.algebraic_KernelIdeal_ReferenceIdeal := by
  intro m ρ m' ρ' hpre hagree
  refine ⟨fun c => Cert.Bridge.head (Cert.ReferenceIdeal.Read.val_main_v53 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg16)))
      (m ((c : Thread Cert.KernelIdeal.nD Cert.KernelIdeal.τ).loc Cert.KernelIdeal.main_arg17)) (m ((c : Thread Cert.KernelIdeal.nD Cert.KernelIdeal.τ).loc Cert.KernelIdeal.main_arg14)) (m ((c : Thread Cert.KernelIdeal.nD Cert.KernelIdeal.τ).loc Cert.KernelIdeal.main_arg15)), ?_, ?_⟩
  · refine (θ_run Cert.KernelIdeal.defs _ _).mono (fun _ h c => ⟨(h c).1.trans ?_, (h c).2⟩) (Cert.Bridge.kernel_run m ρ)
    rw [launch_value m hpre c]
  · exact (θ_run Cert.ReferenceIdeal.defs _ _).mono (fun _ h c => ⟨(h c).1.trans (reference_value m m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
